-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part2 {F : FTy → Type} [FloatOps F] (main_arg7 : FVec F S4096 .f32) (main_arg8 : FVec F S1024x4096 .f32) (main_arg9 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S256x1024 .f32) (main_arg5 : FVec F S256 .f32) (main_arg6 : FVec F S4096x1024 .f32) (main_arg7 : FVec F S4096 .f32) (main_arg8 : FVec F S1024x4096 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x256x32x32 .f32) (main_arg1 : FVec F S64x256x32x32 .f32) (main_arg2 : FVec F S1024x256 .f32) (main_arg3 : FVec F S1024 .f32) (main_arg4 : FVec F S256x1024 .f32) (main_arg5 : FVec F S256 .f32) (main_arg6 : FVec F S4096x1024 .f32) (main_arg7 : FVec F S4096 .f32) (main_arg8 : FVec F S1024x4096 .f32) (main_arg9 : FVec F S1024 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S64x256x32x32 .f32 := Host.absf main_arg1
  let main_cst_0 : FVec F S_ .f32 := constant S_ .f32 0x7F800000#32
  let main_v5 : FVec F S64x256x32x32 .f32 := broadcastInDim S64x256x32x32 ![] bcast_S_S64x256x32x32 main_cst_0
  let main_v6 : IVec S64x256x32x32 1 := cmpf .olt main_v4 main_v5
  let main_c_1 : IVec S_ 1 := constantI S_ 1 1#1
  let main_v7 : IVec S_ 1 := (fun x v => Host.reduce IntOp.andi x v reducesTo_S64x256x32x32_S_d0_1_2_3 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S64x256x32x32 : Shape := ⟨4, ![64, 256, 32, 32]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S4096x1024 : Shape := ⟨2, ![4096, 1024]⟩
abbrev S4096 : Shape := ⟨1, ![4096]⟩
abbrev S1024x4096 : Shape := ⟨2, ![1024, 4096]⟩
abbrev S64x256x1024 : Shape := ⟨3, ![64, 256, 1024]⟩
abbrev S64x256 : Shape := ⟨2, ![64, 256]⟩
abbrev S64x1024 : Shape := ⟨2, ![64, 1024]⟩
abbrev S8x256x1024 : Shape := ⟨3, ![8, 256, 1024]⟩
abbrev S8x256 : Shape := ⟨2, ![8, 256]⟩
abbrev S8x1024 : Shape := ⟨2, ![8, 1024]⟩
abbrev S1x1x256 : Shape := ⟨3, ![1, 1, 256]⟩
abbrev S8x1x256 : Shape := ⟨3, ![8, 1, 256]⟩
abbrev S8x1x1024 : Shape := ⟨3, ![8, 1, 1024]⟩
abbrev S1x1024 : Shape := ⟨2, ![1, 1024]⟩
abbrev S_ : Shape := ⟨0, ![]⟩
abbrev S1x256 : Shape := ⟨2, ![1, 256]⟩
abbrev S64x4096 : Shape := ⟨2, ![64, 4096]⟩
abbrev S1x4096 : Shape := ⟨2, ![1, 4096]⟩
abbrev S8x256x512 : Shape := ⟨3, ![8, 256, 512]⟩
abbrev S8x512 : Shape := ⟨2, ![8, 512]⟩
abbrev S8x256x1 : Shape := ⟨3, ![8, 256, 1]⟩
abbrev S8x1x512 : Shape := ⟨3, ![8, 1, 512]⟩

abbrev nBuf : Space → Nat
  | .hbm => 62
  | .vmem => 14
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S1024x256, .f32⟩
  | .hbm, ⟨3, _⟩ => ⟨S1024, .f32⟩
  | .hbm, ⟨4, _⟩ => ⟨S256x1024, .f32⟩
  | .hbm, ⟨5, _⟩ => ⟨S256, .f32⟩
  | .hbm, ⟨6, _⟩ => ⟨S4096x1024, .f32⟩
  | .hbm, ⟨7, _⟩ => ⟨S4096, .f32⟩
  | .hbm, ⟨8, _⟩ => ⟨S1024x4096, .f32⟩
  | .hbm, ⟨9, _⟩ => ⟨S1024, .f32⟩
  | .hbm, ⟨10, _⟩ => ⟨S64x256x1024, .f32⟩
  | .hbm, ⟨11, _⟩ => ⟨S64x256x1024, .f32⟩
  | .hbm, ⟨12, _⟩ => ⟨S64x256, .f32⟩
  | .hbm, ⟨13, _⟩ => ⟨S64x1024, .f32⟩
  | .hbm, ⟨14, _⟩ => ⟨S256x1024, .f32⟩
  | .hbm, ⟨15, _⟩ => ⟨S64x1024, .f32⟩
  | .hbm, ⟨16, _⟩ => ⟨S1x1024, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S1024x256, .f32⟩
  | .hbm, ⟨23, _⟩ => ⟨S64x256, .f32⟩
  | .hbm, ⟨24, _⟩ => ⟨S1x256, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S64x256, .f32⟩
  | .hbm, ⟨32, _⟩ => ⟨S_, .f32⟩
  | .hbm, ⟨33, _⟩ => ⟨S64x256, .f32⟩
  | .hbm, ⟨34, _⟩ => ⟨S64x256, .f32⟩
  | .hbm, ⟨35, _⟩ => ⟨S4096x1024, .bf16⟩
  | .hbm, ⟨36, _⟩ => ⟨S1024x4096, .bf16⟩
  | .hbm, ⟨37, _⟩ => ⟨S64x1024, .bf16⟩
  | .hbm, ⟨38, _⟩ => ⟨S1024x4096, .bf16⟩
  | .hbm, ⟨39, _⟩ => ⟨S64x4096, .f32⟩
  | .hbm, ⟨40, _⟩ => ⟨S1x4096, .f32⟩
  | .hbm, ⟨41, _⟩ => ⟨S64x4096, .f32⟩
  | .hbm, ⟨42, _⟩ => ⟨S64x4096, .f32⟩
  | .hbm, ⟨43, _⟩ => ⟨S_, .f32⟩
  | .hbm, ⟨44, _⟩ => ⟨S64x4096, .f32⟩
  | .hbm, ⟨45, _⟩ => ⟨S64x4096, .f32⟩
  | .hbm, ⟨46, _⟩ => ⟨S64x4096, .bf16⟩
  | .hbm, ⟨47, _⟩ => ⟨S4096x1024, .bf16⟩
  | .hbm, ⟨48, _⟩ => ⟨S64x1024, .f32⟩
  | .hbm, ⟨49, _⟩ => ⟨S1x1024, .f32⟩
  | .hbm, ⟨50, _⟩ => ⟨S64x1024, .f32⟩
  | .hbm, ⟨51, _⟩ => ⟨S64x1024, .f32⟩
  | .hbm, ⟨52, _⟩ => ⟨S64x1024, .f32⟩
  | .hbm, ⟨53, _⟩ => ⟨S64x1024, .f32⟩
  | .hbm, ⟨54, _⟩ => ⟨S_, .f32⟩
  | .hbm, ⟨55, _⟩ => ⟨S64x1024, .f32⟩
  | .hbm, ⟨56, _⟩ => ⟨S64x1024, .f32⟩
  | .hbm, ⟨57, _⟩ => ⟨S_, .f32⟩
  | .hbm, ⟨58, _⟩ => ⟨S64x1024, .f32⟩
  | .hbm, ⟨59, _⟩ => ⟨S64x1024, .f32⟩
  | .hbm, ⟨60, _⟩ => ⟨S64x256x1024, .f32⟩
  | .hbm, ⟨61, _⟩ => ⟨S64x256x32x32, .f32⟩
  | .local _ .vmem, ⟨0, _⟩ => ⟨S8x256x1024, .f32⟩
  | .local _ .vmem, ⟨1, _⟩ => ⟨S8x256x1024, .f32⟩
  | .local _ .vmem, ⟨2, _⟩ => ⟨S8x256, .f32⟩
  | .local _ .vmem, ⟨3, _⟩ => ⟨S8x256, .f32⟩
  | .local _ .vmem, ⟨4, _⟩ => ⟨S8x1024, .f32⟩
  | .local _ .vmem, ⟨5, _⟩ => ⟨S8x1024, .f32⟩
  | .local _ .vmem, ⟨6, _⟩ => ⟨S8x256x512, .f32⟩
  | .local _ .vmem, ⟨7, _⟩ => ⟨S8x256x512, .f32⟩
  | .local _ .vmem, ⟨8, _⟩ => ⟨S8x256, .f32⟩
  | .local _ .vmem, ⟨9, _⟩ => ⟨S8x256, .f32⟩
  | .local _ .vmem, ⟨10, _⟩ => ⟨S8x512, .f32⟩
  | .local _ .vmem, ⟨11, _⟩ => ⟨S8x512, .f32⟩
  | .local _ .vmem, ⟨12, _⟩ => ⟨S8x256x512, .f32⟩
  | .local _ .vmem, ⟨13, _⟩ => ⟨S8x256x512, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_1 : Ref sig .tc := ⟨.hbm, 54, rfl⟩
abbrev main_v37 : Ref sig .tc := ⟨.hbm, 55, rfl⟩
abbrev main_v38 : Ref sig .tc := ⟨.hbm, 56, rfl⟩
abbrev main_cst_2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64x256x32x32_S64x256x1024 : S64x256x32x32.ShapeCasts S64x256x1024
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S8x256 : S8x256x1024.Reduces [2] S8x256
  inb_S8x256_S8x256_0_0 : ∀ a, (![0, 0] : Fin 2 → Nat) a + S8x256.size a ≤ S8x256.size a
  h_S8x256 : 0 < S8x256.numel
  shapeCasts_S1x1x256_S1x1x256 : S1x1x256.ShapeCasts S1x1x256
  broadcasts_S1x1x256_S8x1x256 : S1x1x256.Broadcasts S8x1x256
  shapeCasts_S8x1x1024_S8x1024 : S8x1x1024.ShapeCasts S8x1024
  inb_S8x1024_S8x1024_0_0 : ∀ a, (![0, 0] : Fin 2 → Nat) a + S8x1024.size a ≤ S8x1024.size a
  h_S8x1024 : 0 < S8x1024.numel
  transposes_S1024x256_S256x1024_1_0 : S1024x256.Transposes [1, 0] S256x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  transposes_S256x1024_S1024x256_1_0 : S256x1024.Transposes [1, 0] S1024x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bitsLt_bf16_f32 : FTy.bits .bf16 < FTy.bits .f32
  transposes_S4096x1024_S1024x4096_1_0 : S4096x1024.Transposes [1, 0] S1024x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S_S64x4096 : S_.BroadcastsInDim S64x4096 (![] : Fin 0 → Fin S64x4096.rank)
  transposes_S1024x4096_S4096x1024_1_0 : S1024x4096.Transposes [1, 0] S4096x1024
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  shapeCasts_S8x256_S8x256 : S8x256.ShapeCasts S8x256
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x256_S8x256x1 : S8x256.ShapeCasts S8x256x1
  broadcasts_S8x256x1_S8x256x512 : S8x256x1.Broadcasts S8x256x512
  shapeCasts_S8x512_S8x1x512 : S8x512.ShapeCasts S8x1x512
  broadcasts_S8x1x512_S8x256x512 : S8x1x512.Broadcasts S8x256x512
  shapeCasts_S64x256x1024_S64x256x32x32 : S64x256x1024.ShapeCasts S64x256x32x32
  dot_S8x1x256_S8x256x1024_S8x1x1024_2_1_1_2_0_0_wf : DotDims.WF S8x1x256 S8x256x1024 S8x1x1024 [2] [1] [1] [2] [0] [0]
  dot_S64x256_S256x1024_S64x1024_1_0_0_1_n_n_wf : DotDims.WF S64x256 S256x1024 S64x1024 [1] [0] [0] [1] [] []
  dot_S64x1024_S1024x256_S64x256_1_0_0_1_n_n_wf : DotDims.WF S64x1024 S1024x256 S64x256 [1] [0] [0] [1] [] []
  dot_S64x1024_S1024x4096_S64x4096_1_0_0_1_n_n_wf : DotDims.WF S64x1024 S1024x4096 S64x4096 [1] [0] [0] [1] [] []
  dot_S64x4096_S4096x1024_S64x1024_1_0_0_1_n_n_wf : DotDims.WF S64x4096 S4096x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x256x1024.size a
  hwx0_0 : ∀ i : grid0.Coords, EltTy.bits .f32 = 32 ∨ (Rect.block (s := S64x256x1024) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S64x1024.size a
  hwx0_2 : ∀ i : grid0.Coords, EltTy.bits .f32 = 32 ∨ (Rect.block (s := S64x1024) S8x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x512.size a ≤ S64x256x1024.size a
  hwx1_0 : ∀ i : grid1.Coords, EltTy.bits .f32 = 32 ∨ (Rect.block (s := S64x256x1024) S8x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S64x256.size a
  hwx1_1 : ∀ i : grid1.Coords, EltTy.bits .f32 = 32 ∨ (Rect.block (s := S64x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S64x1024.size a
  hwx1_2 : ∀ i : grid1.Coords, EltTy.bits .f32 = 32 ∨ (Rect.block (s := S64x1024) S8x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x512.size a ≤ S64x256x1024.size a
  hwx1_3 : ∀ i : grid1.Coords, EltTy.bits .f32 = 32 ∨ (Rect.block (s := S64x256x1024) S8x256x512.size (cc1_transform_3 i) (hinb1_3 i)).WholeWords (EltTy.packing .f32)

variable [Facts₀]

def dot_S8x1x256_S8x256x1024_S8x1x1024_2_1_1_2_0_0 : DotDims S8x1x256 S8x256x1024 S8x1x1024 where
  lhsContracting := [2]
  rhsContracting := [1]
  lhsNonContracting := [1]
  rhsNonContracting := [2]
  lhsBatch := [0]
  rhsBatch := [0]
  wf := dot_S8x1x256_S8x256x1024_S8x1x1024_2_1_1_2_0_0_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf
def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf

abbrev win0_0 : Pipeline.Window sig grid0 :=
  Pipeline.Window.ofSpec (Memref.whole main_v0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S8x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S8x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S8x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S8x256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x256x32x32 : Shape := ⟨4, ![64, 256, 32, 32]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S64x256 : Shape := ⟨2, ![64, 256]⟩
abbrev S64x1024 : Shape := ⟨2, ![64, 1024]⟩
abbrev S1x1024 : Shape := ⟨2, ![1, 1024]⟩
abbrev S1x256 : Shape := ⟨2, ![1, 256]⟩
abbrev S64x256x1x1 : Shape := ⟨4, ![64, 256, 1, 1]⟩
abbrev S64x32x32 : Shape := ⟨3, ![64, 32, 32]⟩
abbrev S64x4096 : Shape := ⟨2, ![64, 4096]⟩
abbrev S1x4096 : Shape := ⟨2, ![1, 4096]⟩
abbrev S64x1x32x32 : Shape := ⟨4, ![64, 1, 32, 32]⟩

abbrev nBuf : Space → Nat
  | .hbm => 70
  | .vmem => 0
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S1024x256, .f32⟩
  | .hbm, ⟨3, _⟩ => ⟨S1024, .f32⟩
  | .hbm, ⟨4, _⟩ => ⟨S256x1024, .f32⟩
  | .hbm, ⟨5, _⟩ => ⟨S256, .f32⟩
  | .hbm, ⟨6, _⟩ => ⟨S4096x1024, .f32⟩
  | .hbm, ⟨7, _⟩ => ⟨S4096, .f32⟩
  | .hbm, ⟨8, _⟩ => ⟨S1024x4096, .f32⟩
  | .hbm, ⟨9, _⟩ => ⟨S1024, .f32⟩
  | .hbm, ⟨10, _⟩ => ⟨S_, .f32⟩
  | .hbm, ⟨11, _⟩ => ⟨S64x256, .f32⟩
  | .hbm, ⟨12, _⟩ => ⟨S_, .f32⟩
  | .hbm, ⟨13, _⟩ => ⟨S64x256, .f32⟩
  | .hbm, ⟨14, _⟩ => ⟨S64x256, .f32⟩
  | .hbm, ⟨15, _⟩ => ⟨S256x1024, .f32⟩
  | .hbm, ⟨16, _⟩ => ⟨S64x1024, .f32⟩
  | .hbm, ⟨17, _⟩ => ⟨S1x1024, .f32⟩
  | .hbm, ⟨18, _⟩ => ⟨S64x1024, .f32⟩
  | .hbm, ⟨19, _⟩ => ⟨S64x1024, .f32⟩
  | .hbm, ⟨20, _⟩ => ⟨S_, .f32⟩
  | .hbm, ⟨21, _⟩ => ⟨S64x1024, .f32⟩
  | .hbm, ⟨22, _⟩ => ⟨S64x1024, .f32⟩
  | .hbm, ⟨23, _⟩ => ⟨S1024x256, .f32⟩
  | .hbm, ⟨24, _⟩ => ⟨S64x256, .f32⟩
  | .hbm, ⟨25, _⟩ => ⟨S1x256, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S64x256, .f32⟩
  | .hbm, ⟨30, _⟩ => ⟨S_, .f32⟩
  | .hbm, ⟨31, _⟩ => ⟨S64x256, .f32⟩
  | .hbm, ⟨32, _⟩ => ⟨S64x256, .f32⟩
  | .hbm, ⟨33, _⟩ => ⟨S_, .f32⟩
  | .hbm, ⟨34, _⟩ => ⟨S64x256, .f32⟩
  | .hbm, ⟨35, _⟩ => ⟨S64x256, .f32⟩
  | .hbm, ⟨36, _⟩ => ⟨S64x256x1x1, .f32⟩
  | .hbm, ⟨37, _⟩ => ⟨S64x256x32x32, .f32⟩
  | .hbm, ⟨38, _⟩ => ⟨S64x256x32x32, .f32⟩
  | .hbm, ⟨39, _⟩ => ⟨S_, .f32⟩
  | .hbm, ⟨40, _⟩ => ⟨S64x32x32, .f32⟩
  | .hbm, ⟨41, _⟩ => ⟨S_, .f32⟩
  | .hbm, ⟨42, _⟩ => ⟨S64x32x32, .f32⟩
  | .hbm, ⟨43, _⟩ => ⟨S64x32x32, .f32⟩
  | .hbm, ⟨44, _⟩ => ⟨S64x1024, .f32⟩
  | .hbm, ⟨45, _⟩ => ⟨S1024x4096, .f32⟩
  | .hbm, ⟨46, _⟩ => ⟨S64x4096, .f32⟩
  | .hbm, ⟨47, _⟩ => ⟨S1x4096, .f32⟩
  | .hbm, ⟨48, _⟩ => ⟨S64x4096, .f32⟩
  | .hbm, ⟨49, _⟩ => ⟨S64x4096, .f32⟩
  | .hbm, ⟨50, _⟩ => ⟨S_, .f32⟩
  | .hbm, ⟨51, _⟩ => ⟨S64x4096, .f32⟩
  | .hbm, ⟨52, _⟩ => ⟨S64x4096, .f32⟩
  | .hbm, ⟨53, _⟩ => ⟨S4096x1024, .f32⟩
  | .hbm, ⟨54, _⟩ => ⟨S64x1024, .f32⟩
  | .hbm, ⟨55, _⟩ => ⟨S1x1024, .f32⟩
  | .hbm, ⟨56, _⟩ => ⟨S64x1024, .f32⟩
  | .hbm, ⟨57, _⟩ => ⟨S64x1024, .f32⟩
  | .hbm, ⟨58, _⟩ => ⟨S64x1024, .f32⟩
  | .hbm, ⟨59, _⟩ => ⟨S64x1024, .f32⟩
  | .hbm, ⟨60, _⟩ => ⟨S_, .f32⟩
  | .hbm, ⟨61, _⟩ => ⟨S64x1024, .f32⟩
  | .hbm, ⟨62, _⟩ => ⟨S64x1024, .f32⟩
  | .hbm, ⟨63, _⟩ => ⟨S_, .f32⟩
  | .hbm, ⟨64, _⟩ => ⟨S64x1024, .f32⟩
  | .hbm, ⟨65, _⟩ => ⟨S64x1024, .f32⟩
  | .hbm, ⟨66, _⟩ => ⟨S64x1x32x32, .f32⟩
  | .hbm, ⟨67, _⟩ => ⟨S64x256x32x32, .f32⟩
  | .hbm, ⟨68, _⟩ => ⟨S64x256x32x32, .f32⟩
  | .hbm, ⟨69, _⟩ => ⟨S64x256x32x32, .f32⟩
  | _, _ => ⟨S64x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  reducesTo_S64x256x32x32_S64x256_d2_3 : S64x256x32x32.ReducesTo [2, 3] S64x256
  h_S_ : 0 < S_.numel
  bcast_S_S64x256 : S_.BroadcastsInDim S64x256 (![] : Fin 0 → Fin S64x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  transposes_S256x1024_S1024x256_1_0 : S256x1024.Transposes [1, 0] S1024x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x32x32_0_1_2_3 : S64x256x1x1.BroadcastsInDim S64x256x32x32 (![0, 1, 2, 3] : Fin 4 → Fin S64x256x32x32.rank)
  reducesTo_S64x256x32x32_S64x32x32_d1 : S64x256x32x32.ReducesTo [1] S64x32x32
  bcast_S_S64x32x32 : S_.BroadcastsInDim S64x32x32 (![] : Fin 0 → Fin S64x32x32.rank)
  shapeCasts_S64x32x32_S64x1024 : S64x32x32.ShapeCasts S64x1024
  transposes_S4096x1024_S1024x4096_1_0 : S4096x1024.Transposes [1, 0] S1024x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S_S64x4096 : S_.BroadcastsInDim S64x4096 (![] : Fin 0 → Fin S64x4096.rank)
  transposes_S1024x4096_S4096x1024_1_0 : S1024x4096.Transposes [1, 0] S4096x1024
  shapeCasts_S64x1024_S64x1x32x32 : S64x1024.ShapeCasts S64x1x32x32
  bcast_S64x1x32x32_S64x256x32x32_0_1_2_3 : S64x1x32x32.BroadcastsInDim S64x256x32x32 (![0, 1, 2, 3] : Fin 4 → Fin S64x256x32x32.rank)
  dot_S64x256_S256x1024_S64x1024_1_0_0_1_n_n_wf : DotDims.WF S64x256 S256x1024 S64x1024 [1] [0] [0] [1] [] []
  dot_S64x1024_S1024x256_S64x256_1_0_0_1_n_n_wf : DotDims.WF S64x1024 S1024x256 S64x256 [1] [0] [0] [1] [] []
  dot_S64x1024_S1024x4096_S64x4096_1_0_0_1_n_n_wf : DotDims.WF S64x1024 S1024x4096 S64x4096 [1] [0] [0] [1] [] []
  dot_S64x4096_S4096x1024_S64x1024_1_0_0_1_n_n_wf : DotDims.WF S64x4096 S4096x1024 S64x1024 [1] [0] [0] [1] [] []

variable [Facts₀]

def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf
def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf

class Facts : Prop extends Facts₀ where

variable [Facts]
-- ==== Proof.FoldRun.lean ====
/-
  The idealized kernel's run with the whole final memory named.

  @main is nine segments: two reshapes, the first launch (the two means), five stretches of host operations (the two
  gate networks), the second launch (the gated maximum) and a last reshape. The contents of every buffer at each
  segment boundary are a fold through the program from the launch memory; the last boundary's contents are `W9`.
  Here: every weakly fair execution terminates without a fault, and in the final state EVERY unscoped buffer of
  every core holds what the fold says. The later modules read the fold at the result and at the arguments.
-/
import proofs.«131512_j62732292325378_2_alg».proof.Proof.Gen.KernelIdeal.Frame

set_option maxRecDepth 16384

noncomputable section

namespace Cert.KernelIdeal.FoldRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates, nothing faulting, and every unscoped buffer `b` of
    every core `c` ends at the last boundary's contents `W9 m ρ c b`. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.FoldRun

end
-- ==== Proof.Gates.lean ====
/-
  The two gate networks, each as ONE function of the mean it is applied to and of the weights.

  Both programs apply the same host operations to a mean: a linear layer, a bias, a maximum with zero, a second
  linear layer, a bias, and the logistic function written as 1 / (1 + exp (-z)). The channel gate takes the
  per-channel mean [64, 256] through widths 1024 and 256; the position gate takes the per-position mean [64, 1024]
  through widths 4096 and 1024. They are stated twice, once over each program's own shape records, exactly as each
  program prints them; the kernel's position gate first narrows its operands to a 16-bit float format, which at the
  ideal instance is the identity. The two spellings are then the same functions.
-/
import proofs.«131512_j62732292325378_2_alg».proof.Proof.Gen.KernelIdeal
import proofs.«131512_j62732292325378_2_alg».proof.Proof.Gen.ReferenceIdeal
import Idealize.ShloMosaic.PureOps.Ideal

noncomputable section

open Idealize.ShloMosaic

/-! ## As the reference prints them -/

namespace Cert.ReferenceIdeal.Gates

open Cert.ReferenceIdeal Cert.ReferenceIdeal.Facts₀

variable {F : FTy → Type} [FloatOps F]

/-- The channel gate of a per-channel mean `A`: logistic (max (A · W1ᵀ + b1) 0 · W2ᵀ + b2). -/
def chanGate (A : (⟨S64x256, .f32⟩ : BufTy).Contents (Elt F)) (x2 : (⟨S1024x256, .f32⟩ : BufTy).Contents (Elt F))
    (x3 : (⟨S1024, .f32⟩ : BufTy).Contents (Elt F)) (x4 : (⟨S256x1024, .f32⟩ : BufTy).Contents (Elt F))
    (x5 : (⟨S256, .f32⟩ : BufTy).Contents (Elt F)) : (⟨S64x256, .f32⟩ : BufTy).Contents (Elt F) :=
  Host.divf (broadcastInDim S64x256 ![] bcast_S_S64x256 (constant S_ .f32 0x3F800000#32))
    (addf (broadcastInDim S64x256 ![] bcast_S_S64x256 (constant S_ .f32 0x3F800000#32))
      (Host.exp (Host.negf (addf
        (Host.dotGeneral dot_S64x1024_S1024x256_S64x256_1_0_0_1_n_n none
          (maximumf
            (addf (Host.dotGeneral dot_S64x256_S256x1024_S64x1024_1_0_0_1_n_n none A
                (transpose S256x1024 [1, 0] x2 transposes_S1024x256_S256x1024_1_0))
              (broadcastInDim S64x1024 ![0, 1] bcast_S1x1024_S64x1024_0_1 (broadcastInDim S1x1024 ![1] bcast_S1024_S1x1024_1 x3)))
            (broadcastInDim S64x1024 ![] bcast_S_S64x1024 (constant S_ .f32 0x00000000#32)))
          (transpose S1024x256 [1, 0] x4 transposes_S256x1024_S1024x256_1_0))
        (broadcastInDim S64x256 ![0, 1] bcast_S1x256_S64x256_0_1 (broadcastInDim S1x256 ![1] bcast_S256_S1x256_1 x5))))))

/-- The position gate of a per-position mean `B`: logistic (max (B · W1ᵀ + b1) 0 · W2ᵀ + b2). -/
def posGate (B : (⟨S64x1024, .f32⟩ : BufTy).Contents (Elt F)) (x6 : (⟨S4096x1024, .f32⟩ : BufTy).Contents (Elt F))
    (x7 : (⟨S4096, .f32⟩ : BufTy).Contents (Elt F)) (x8 : (⟨S1024x4096, .f32⟩ : BufTy).Contents (Elt F))
    (x9 : (⟨S1024, .f32⟩ : BufTy).Contents (Elt F)) : (⟨S64x1024, .f32⟩ : BufTy).Contents (Elt F) :=
  Host.divf (broadcastInDim S64x1024 ![] bcast_S_S64x1024 (constant S_ .f32 0x3F800000#32))
    (addf (broadcastInDim S64x1024 ![] bcast_S_S64x1024 (constant S_ .f32 0x3F800000#32))
      (Host.exp (Host.negf (addf
        (Host.dotGeneral dot_S64x4096_S4096x1024_S64x1024_1_0_0_1_n_n none
          (maximumf
            (addf (Host.dotGeneral dot_S64x1024_S1024x4096_S64x4096_1_0_0_1_n_n none B
                (transpose S1024x4096 [1, 0] x6 transposes_S4096x1024_S1024x4096_1_0))
              (broadcastInDim S64x4096 ![0, 1] bcast_S1x4096_S64x4096_0_1 (broadcastInDim S1x4096 ![1] bcast_S4096_S1x4096_1 x7)))
            (broadcastInDim S64x4096 ![] bcast_S_S64x4096 (constant S_ .f32 0x00000000#32)))
          (transpose S4096x1024 [1, 0] x8 transposes_S1024x4096_S4096x1024_1_0))
        (broadcastInDim S64x1024 ![0, 1] bcast_S1x1024_S64x1024_0_1 (broadcastInDim S1x1024 ![1] bcast_S1024_S1x1024_1 x9))))))

end Cert.ReferenceIdeal.Gates

/-! ## As the kernel's program prints them -/

namespace Cert.KernelIdeal.Gates

open Cert.KernelIdeal Cert.KernelIdeal.Facts₀

variable {F : FTy → Type} [FloatOps F]

/-- The channel gate, over the kernel program's records. -/
def chanGate (A : (⟨S64x256, .f32⟩ : BufTy).Contents (Elt F)) (x2 : (⟨S1024x256, .f32⟩ : BufTy).Contents (Elt F))
    (x3 : (⟨S1024, .f32⟩ : BufTy).Contents (Elt F)) (x4 : (⟨S256x1024, .f32⟩ : BufTy).Contents (Elt F))
    (x5 : (⟨S256, .f32⟩ : BufTy).Contents (Elt F)) : (⟨S64x256, .f32⟩ : BufTy).Contents (Elt F) :=
  Host.divf (broadcastInDim S64x256 ![] bcast_S_S64x256 (constant S_ .f32 0x3F800000#32))
    (addf (broadcastInDim S64x256 ![] bcast_S_S64x256 (constant S_ .f32 0x3F800000#32))
      (Host.exp (Host.negf (addf
        (Host.dotGeneral dot_S64x1024_S1024x256_S64x256_1_0_0_1_n_n none
          (maximumf
            (addf (Host.dotGeneral dot_S64x256_S256x1024_S64x1024_1_0_0_1_n_n none A
                (transpose S256x1024 [1, 0] x2 transposes_S1024x256_S256x1024_1_0))
              (broadcastInDim S64x1024 ![0, 1] bcast_S1x1024_S64x1024_0_1 (broadcastInDim S1x1024 ![1] bcast_S1024_S1x1024_1 x3)))
            (broadcastInDim S64x1024 ![] bcast_S_S64x1024 (constant S_ .f32 0x00000000#32)))
          (transpose S1024x256 [1, 0] x4 transposes_S256x1024_S1024x256_1_0))
        (broadcastInDim S64x256 ![0, 1] bcast_S1x256_S64x256_0_1 (broadcastInDim S1x256 ![1] bcast_S256_S1x256_1 x5))))))

/-- The position gate as the kernel's program computes it: the mean, both weight matrices and the hidden layer
    narrowed to the 16-bit format before each product. -/
def posGate (B : (⟨S64x1024, .f32⟩ : BufTy).Contents (Elt F)) (x6 : (⟨S4096x1024, .f32⟩ : BufTy).Contents (Elt F))
    (x7 : (⟨S4096, .f32⟩ : BufTy).Contents (Elt F)) (x8 : (⟨S1024x4096, .f32⟩ : BufTy).Contents (Elt F))
    (x9 : (⟨S1024, .f32⟩ : BufTy).Contents (Elt F)) : (⟨S64x1024, .f32⟩ : BufTy).Contents (Elt F) :=
  Host.divf (broadcastInDim S64x1024 ![] bcast_S_S64x1024 (constant S_ .f32 0x3F800000#32))
    (addf (broadcastInDim S64x1024 ![] bcast_S_S64x1024 (constant S_ .f32 0x3F800000#32))
      (Host.exp (Host.negf (addf
        (Host.dotGeneral dot_S64x4096_S4096x1024_S64x1024_1_0_0_1_n_n none
          (truncf .bf16 (maximumf
            (addf (Host.dotGeneral dot_S64x1024_S1024x4096_S64x4096_1_0_0_1_n_n none (truncf .bf16 B bitsLt_bf16_f32)
                (transpose S1024x4096 [1, 0] (truncf .bf16 x6 bitsLt_bf16_f32) transposes_S4096x1024_S1024x4096_1_0))
              (broadcastInDim S64x4096 ![0, 1] bcast_S1x4096_S64x4096_0_1 (broadcastInDim S1x4096 ![1] bcast_S4096_S1x4096_1 x7)))
            (broadcastInDim S64x4096 ![] bcast_S_S64x4096 (constant S_ .f32 0x00000000#32))) bitsLt_bf16_f32)
          (transpose S4096x1024 [1, 0] (truncf .bf16 x8 bitsLt_bf16_f32) transposes_S1024x4096_S4096x1024_1_0))
        (broadcastInDim S64x1024 ![0, 1] bcast_S1x1024_S64x1024_0_1 (broadcastInDim S1x1024 ![1] bcast_S1024_S1x1024_1 x9))))))

/-- The two spellings of the channel gate are one function: the records have the same fields. -/
theorem chanGate_eq (A : (⟨S64x256, .f32⟩ : BufTy).Contents (Elt F)) (x2 : (⟨S1024x256, .f32⟩ : BufTy).Contents (Elt F))
    (x3 : (⟨S1024, .f32⟩ : BufTy).Contents (Elt F)) (x4 : (⟨S256x1024, .f32⟩ : BufTy).Contents (Elt F))
    (x5 : (⟨S256, .f32⟩ : BufTy).Contents (Elt F)) :
    chanGate A x2 x3 x4 x5 = Cert.ReferenceIdeal.Gates.chanGate A x2 x3 x4 x5 := rfl

/-- At the ideal instance narrowing a float is the identity, so the kernel's position gate is the reference's. -/
theorem posGate_eq (B : (⟨S64x1024, .f32⟩ : BufTy).Contents (Elt Ideal)) (x6 : (⟨S4096x1024, .f32⟩ : BufTy).Contents (Elt Ideal))
    (x7 : (⟨S4096, .f32⟩ : BufTy).Contents (Elt Ideal)) (x8 : (⟨S1024x4096, .f32⟩ : BufTy).Contents (Elt Ideal))
    (x9 : (⟨S1024, .f32⟩ : BufTy).Contents (Elt Ideal)) :
    posGate (F := Ideal) B x6 x7 x8 x9 = Cert.ReferenceIdeal.Gates.posGate (F := Ideal) B x6 x7 x8 x9 := rfl

end Cert.KernelIdeal.Gates

end
-- ==== Proof.Means.lean ====
/-
  The three functions the certificate is about, index by index on the extended reals, over an activation laid out
  [batch 64, channel 256, position 1024] (a 32 x 32 image's positions in row-major order):

  * `chanMean`: the mean of each channel over its 1024 positions, a sum divided by 1024;
  * `posMean`: the mean of each position over the 256 channels, taken as a contraction with a row of ones
    (each entry times one, summed) and then scaled by the binary value 1/256;
  * `gatedMax`: the larger of two gated copies of an activation, one gate per (batch, channel) and one per
    (batch, position).
-/
import Idealize.ShloMosaic.PureOps.Ideal
import Idealize.ShloMosaic.Lib.ValueIdx

noncomputable section

open scoped BigOperators

namespace Cert.Gate

open Idealize.ShloMosaic Idealize.ShloMosaic.ValueIdx

/-- An activation: batch, channel, position. -/
abbrev Act3 : Shape := ⟨3, ![64, 256, 1024]⟩
/-- One value per (batch, channel). -/
abbrev PerChan : Shape := ⟨2, ![64, 256]⟩
/-- One value per (batch, position). -/
abbrev PerPos : Shape := ⟨2, ![64, 1024]⟩

/-- The mean of channel `c` of batch `b` over the positions: the sum of the 1024 entries divided by 1024. -/
def chanMean (x : Act3.Idx → EReal) : PerChan.Idx → EReal := fun j =>
  Ideal.div (∑ l : Fin 1024, x (ix3 (j 0) (j 1) l)) (Ideal.ofBits .f32 0x44800000#32)

/-- The mean at position `l` of batch `b` over the channels, as a product with a row of ones scaled by 1/256. -/
def posMean (x : Act3.Idx → EReal) : PerPos.Idx → EReal := fun j =>
  (∑ k : Fin 256, Ideal.ofBits .f32 0x3F800000#32 * x (ix3 (j 0) k (j 1))) * Ideal.ofBits .f32 0x3B800000#32

/-- The larger of the activation gated per channel and the activation gated per position. -/
def gatedMax (t : Act3.Idx → EReal) (gc : PerChan.Idx → EReal) (gs : PerPos.Idx → EReal) : Act3.Idx → EReal := fun i =>
  max (t i * gc (ix2 (i 0) (i 1))) (t i * gs (ix2 (i 0) (i 2)))

theorem chanMean_apply (x : Act3.Idx → EReal) (b : Fin 64) (c : Fin 256) :
    chanMean x (ix2 b c) = Ideal.div (∑ l : Fin 1024, x (ix3 b c l)) (Ideal.ofBits .f32 0x44800000#32) := rfl

theorem posMean_apply (x : Act3.Idx → EReal) (b : Fin 64) (l : Fin 1024) :
    posMean x (ix2 b l) = (∑ k : Fin 256, Ideal.ofBits .f32 0x3F800000#32 * x (ix3 b k l)) * Ideal.ofBits .f32 0x3B800000#32 := rfl

theorem gatedMax_apply (t : Act3.Idx → EReal) (gc : PerChan.Idx → EReal) (gs : PerPos.Idx → EReal)
    (b : Fin 64) (c : Fin 256) (l : Fin 1024) :
    gatedMax t gc gs (ix3 b c l) = max (t (ix3 b c l) * gc (ix2 b c)) (t (ix3 b c l) * gs (ix2 b l)) := rfl

end Cert.Gate

end
-- ==== Proof.KernelValue.lean ====
/-
  What the kernel's program returns, as ONE function of its ten arguments: flatten both image batches; take the
  two means of the first; put each through its gate network; gate the second batch by both and keep the larger
  product; un-flatten.
-/
import proofs.«131512_j62732292325378_2_alg».proof.Proof.Gates
import proofs.«131512_j62732292325378_2_alg».proof.Proof.Means

noncomputable section

namespace Cert.KernelIdeal.KernelValue

open Cert.KernelIdeal Cert.KernelIdeal.Facts₀ Idealize.ShloMosaic

/-- An image batch with its 32 x 32 positions flattened. -/
abbrev flat (x : (⟨S64x256x32x32, .f32⟩ : BufTy).Contents (Elt Ideal)) : (⟨S64x256x1024, .f32⟩ : BufTy).Contents (Elt Ideal) :=
  shapeCast S64x256x1024 x shapeCasts_S64x256x32x32_S64x256x1024

/-- The program's result as a function of its arguments. -/
def value (x0 x1 : (⟨S64x256x32x32, .f32⟩ : BufTy).Contents (Elt Ideal)) (x2 : (⟨S1024x256, .f32⟩ : BufTy).Contents (Elt Ideal))
    (x3 : (⟨S1024, .f32⟩ : BufTy).Contents (Elt Ideal)) (x4 : (⟨S256x1024, .f32⟩ : BufTy).Contents (Elt Ideal))
    (x5 : (⟨S256, .f32⟩ : BufTy).Contents (Elt Ideal)) (x6 : (⟨S4096x1024, .f32⟩ : BufTy).Contents (Elt Ideal))
    (x7 : (⟨S4096, .f32⟩ : BufTy).Contents (Elt Ideal)) (x8 : (⟨S1024x4096, .f32⟩ : BufTy).Contents (Elt Ideal))
    (x9 : (⟨S1024, .f32⟩ : BufTy).Contents (Elt Ideal)) : (⟨S64x256x32x32, .f32⟩ : BufTy).Contents (Elt Ideal) :=
  shapeCast S64x256x32x32
    (Cert.Gate.gatedMax (flat x1) (Gates.chanGate (Cert.Gate.chanMean (flat x0)) x2 x3 x4 x5)
      (Gates.posGate (Cert.Gate.posMean (flat x0)) x6 x7 x8 x9))
    shapeCasts_S64x256x1024_S64x256x32x32

end Cert.KernelIdeal.KernelValue

end
-- ==== Proof.SqueezeRegion.lean ====
/-
  The first of the program's two kernels, block by block: on each block of 8 batch rows of the activation it
  writes, per (row, channel), the sum over the 1024 positions divided by 1024, and, per (row, position), the
  contraction over the 256 channels with a row of ones, scaled by 1/256. Here: each of the two results at an
  index of its block as a sum over the block's entries; each block read where it sits in its array (block t of
  an array is its batch rows 8t … 8t + 7); and, the 8 blocks tiling each result, the two result arrays after the
  kernel as the channel means and the position means of the activation the kernel was given.
-/
import proofs.«131512_j62732292325378_2_alg».proof.Proof.Gen.KernelIdeal.Frame
import proofs.«131512_j62732292325378_2_alg».proof.Proof.Means
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.SqueezeRegion

open Cert.KernelIdeal Cert.KernelIdeal.Gen Idealize.ShloMosaic Idealize.ShloMosaic.TcCoe Idealize.SL.Sem Idealize.ShloMosaic.ValueIdx
open Idealize.ShloMosaic.Pipeline (Dat)

/-! ## The two results at an index of a block -/

/-- A sum over the last axis of a block, read at (b, c): the sum over the 1024 positions. -/
theorem sum_positions (x : FVec Ideal S8x256x1024 .f32) (h : S8x256x1024.Reduces [2] S8x256) (hφ : FKind.Formats .f32)
    (hacc : (0x00000000#32 : BitVec 32) = FKind.add.neutral .f32 hφ) (b : Fin 8) (c : Fin 256) :
    multiReduction .add [2] S8x256 x 0x00000000#32 h hφ hacc (ix2 b c) = ∑ l : Fin 1024, x (ix3 b c l) := by
  refine (Ideal.multiReduction_add_single x _ h hφ hacc (ix2 b c)).trans ?_
  refine Finset.sum_congr rfl fun l _ => congrArg x ?_
  funext a
  apply Fin.ext
  match a with
  | ⟨0, _⟩ => rfl
  | ⟨1, _⟩ => rfl
  | ⟨2, _⟩ => rfl

/-- The first payload at (b, c): the block's sum over the positions divided by 1024. -/
theorem chanPayload (x0 : Vec Ideal S8x256x1024 .f32) (b : Fin 8) (c : Fin 256) :
    k0_pay2 (F := Ideal) x0 (ix2 b c)
      = Ideal.div (∑ l : Fin 1024, x0 (ix3 b c l)) (Ideal.ofBits .f32 0x44800000#32) := by
  unfold k0_pay2 k0_pay1
  rw [shapeCast_self]
  exact congrArg (fun s => Ideal.div s (Ideal.ofBits .f32 0x44800000#32)) (sum_positions x0 _ _ _ b c)

/-- The contraction's right operand index on the batch axis: the output's first coordinate. -/
theorem rhsIdx_batch (j : S8x1x1024.Idx) (q : dot_S8x1x256_S8x256x1024_S8x1x1024_2_1_1_2_0_0.contr.Idx) :
    (dot_S8x1x256_S8x256x1024_S8x1x1024_2_1_1_2_0_0.rhsIdx j q 0).val = (j 0).val := by
  unfold DotDims.rhsIdx
  rw [dif_pos (show (0 : Fin S8x256x1024.rank) ∈ dot_S8x1x256_S8x256x1024_S8x1x1024_2_1_1_2_0_0.rhsBatch by decide)]
  rfl
/-- On the contracted axis: the contraction position. -/
theorem rhsIdx_chan (j : S8x1x1024.Idx) (q : dot_S8x1x256_S8x256x1024_S8x1x1024_2_1_1_2_0_0.contr.Idx) :
    (dot_S8x1x256_S8x256x1024_S8x1x1024_2_1_1_2_0_0.rhsIdx j q 1).val = (q ⟨0, by decide⟩).val :=
  dot_S8x1x256_S8x256x1024_S8x1x1024_2_1_1_2_0_0.rhsIdx_val_of_single rfl j q
/-- On the last axis: the output's last coordinate. -/
theorem rhsIdx_pos (j : S8x1x1024.Idx) (q : dot_S8x1x256_S8x256x1024_S8x1x1024_2_1_1_2_0_0.contr.Idx) :
    (dot_S8x1x256_S8x256x1024_S8x1x1024_2_1_1_2_0_0.rhsIdx j q 2).val = (j 2).val := by
  unfold DotDims.rhsIdx
  rw [dif_neg (show ¬(2 : Fin S8x256x1024.rank) ∈ dot_S8x1x256_S8x256x1024_S8x1x1024_2_1_1_2_0_0.rhsBatch by decide),
    dif_pos (show (2 : Fin S8x256x1024.rank) ∈ dot_S8x1x256_S8x256x1024_S8x1x1024_2_1_1_2_0_0.rhsNonContracting by decide)]
  rfl

/-- So the right operand index at output (b, 0, l) and channel k is (b, k, l). -/
theorem rhsIdx_eq (b : Fin 8) (l : Fin 1024) (k : Fin 256) :
    dot_S8x1x256_S8x256x1024_S8x1x1024_2_1_1_2_0_0.rhsIdx (ix3 b (0 : Fin 1) l)
        ((contrEquiv1 dot_S8x1x256_S8x256x1024_S8x1x1024_2_1_1_2_0_0 256 rfl rfl).symm k) = ix3 b k l := by
  have hk := contrEquiv1_symm_val dot_S8x1x256_S8x256x1024_S8x1x1024_2_1_1_2_0_0 256 rfl rfl k
  funext a
  apply Fin.ext
  match a with
  | ⟨0, _⟩ => exact rhsIdx_batch _ _
  | ⟨1, _⟩ => exact (rhsIdx_chan _ _).trans hk
  | ⟨2, _⟩ => exact rhsIdx_pos _ _

/-- The contraction with a left operand that is one constant `w` everywhere, into the zero accumulator, read at
    (b, 0, l): the sum over the 256 channels of `w` times the block at (b, k, l). -/
theorem contract_const (w : Ideal .f32) (x : FVec Ideal S8x256x1024 .f32) (lhs : FVec Ideal S8x1x256 .f32)
    (hl : ∀ i, lhs i = w) (b : Fin 8) (l : Fin 1024) :
    matmul dot_S8x1x256_S8x256x1024_S8x1x1024_2_1_1_2_0_0 none lhs x (constant (F := Ideal) S8x1x1024 .f32 0x00000000#32)
        (ix3 b (0 : Fin 1) l) = ∑ k : Fin 256, w * x (ix3 b k l) := by
  simp only [matmul]
  rw [Ideal.matmul_constant_zero_apply,
    ← Equiv.sum_comp (contrEquiv1 dot_S8x1x256_S8x256x1024_S8x1x1024_2_1_1_2_0_0 256 rfl rfl).symm]
  refine Finset.sum_congr rfl fun k _ => ?_
  rw [hl, rhsIdx_eq]

/-- The second payload at (b, l): the sum over the 256 channels of one times the block at (b, k, l), scaled by 1/256. -/
theorem posPayload (x0 : Vec Ideal S8x256x1024 .f32) (b : Fin 8) (l : Fin 1024) :
    k0_pay3 (F := Ideal) x0 (ix2 b l)
      = (∑ k : Fin 256, Ideal.ofBits .f32 0x3F800000#32 * x0 (ix3 b k l)) * Ideal.ofBits .f32 0x3B800000#32 := by
  unfold k0_pay3 k0_pay1
  simp only [shapeCast_self]
  refine congrArg (fun s => s * Ideal.ofBits .f32 0x3B800000#32) ?_
  refine (shapeCast_apply _ _ (ix2 b l) (ix3 b (0 : Fin 1) l) ?_).trans ?_
  · rw [Shape.rowMajor_val_three, Shape.rowMajor_val_two]
    show ((b : Nat) * 1 + 0) * 1024 + (l : Nat) = (b : Nat) * 1024 + (l : Nat)
    omega
  · exact contract_const (Ideal.ofBits .f32 0x3F800000#32) x0 _ (fun _ => rfl) b l

/-! ## A block of the activation read where it sits in the array -/

section Blocks

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices, decided over the 8 points: at point t every window is at block t along the batch axis and at
    block 0 along the others. -/
theorem block_index : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (b, ch, l) of the activation's block at point t is entry (8t + b, ch, l) of the activation. -/
theorem act_block (c : Dev nD) (t : Fin cfg0.N) (b : Fin 8) (ch : Fin 256) (l : Fin 1024) (k : Cert.Gate.Act3.Idx)
    (h0 : (k 0).val = t.val * 8 + b.val) (h1 : (k 1).val = ch.val) (h2 : (k 2).val = l.val) :
    (iblk0 V c 0 t : Vec Ideal S8x256x1024 .f32) (ix3 b ch l) = (V c main_v0 : Cert.Gate.Act3.Idx → EReal) k := by
  obtain ⟨e0, e1, e2, -⟩ := block_index t
  unfold iblk0
  rw [View.read_apply]
  show V c main_v0 _ = V c main_v0 k
  congr 1
  funext a
  apply Fin.ext
  match a with
  | ⟨0, _⟩ => show win0_0.index t (0 : Fin 3) * 8 + 1 * b.val = (k 0).val; omega
  | ⟨1, _⟩ => show win0_0.index t (1 : Fin 3) * 256 + 1 * ch.val = (k 1).val; omega
  | ⟨2, _⟩ => show win0_0.index t (2 : Fin 3) * 1024 + 1 * l.val = (k 2).val; omega

/-! ## What a point writes back -/

/-- The first result at an index y of a block whose entries along (y 0, y 1) are the activation's along (i 0, i 1):
    the channel mean at i. -/
theorem chan_point (A : Cert.Gate.Act3.Idx → EReal) (x0 : Vec Ideal S8x256x1024 .f32) (y : S8x256.Idx)
    (i : Cert.Gate.PerChan.Idx) (hx : ∀ l : Fin 1024, x0 (ix3 (y 0) (y 1) l) = A (ix3 (i 0) (i 1) l)) :
    k0_pay2 (F := Ideal) x0 y = Cert.Gate.chanMean A i := by
  refine (congrArg (k0_pay2 (F := Ideal) x0) (eq_ix2 y)).trans ((chanPayload x0 (y 0) (y 1)).trans ?_)
  exact congrArg (fun s => Ideal.div s (Ideal.ofBits .f32 0x44800000#32)) (Finset.sum_congr rfl fun l _ => hx l)

/-- The second result at an index y of a block whose entries along (y 0, ·, y 1) are the activation's along
    (i 0, ·, i 1): the position mean at i. -/
theorem pos_point (A : Cert.Gate.Act3.Idx → EReal) (x0 : Vec Ideal S8x256x1024 .f32) (y : S8x1024.Idx)
    (i : Cert.Gate.PerPos.Idx) (hx : ∀ k : Fin 256, x0 (ix3 (y 0) k (y 1)) = A (ix3 (i 0) k (i 1))) :
    k0_pay3 (F := Ideal) x0 y = Cert.Gate.posMean A i := by
  refine (congrArg (k0_pay3 (F := Ideal) x0) (eq_ix2 y)).trans ((posPayload x0 (y 0) (y 1)).trans ?_)
  exact congrArg (fun s => s * Ideal.ofBits .f32 0x3B800000#32)
    (Finset.sum_congr rfl fun k _ => congrArg (fun v => Ideal.ofBits .f32 0x3F800000#32 * v) (hx k))

/-- What point t writes back to the first result is block t of the channel means of the activation. -/
theorem chan_flushed (c : Dev nD) (t : Fin cfg0.N) :
    (dat0 (F := Ideal) V c).flushed 1 t
      = ((cfg0.win 1).blk t).view.read (Elt Ideal) (Cert.Gate.chanMean (V c main_v0)) := by
  show (cfg0.win 1).cut (grid0.coords t) ((dat0 (F := Ideal) V c).after 1 t) = _
  rw [after0_1]
  unfold out0_1
  rw [View.canon_unit_zero zeros2]
  simp only [View.ld_unit_zero (S := S8x256x1024) zeros3]
  obtain ⟨-, -, -, e3, e4, -⟩ := block_index t
  funext j
  rw [View.read_apply]
  refine chan_point (V c main_v0) _ _ _ fun l => ?_
  refine act_block V c t _ _ l _ ?_ ?_ rfl
  · show win0_1.index t (0 : Fin 2) * 8 + 1 * (j 0).val = t.val * 8 + (j 0).val
    omega
  · show win0_1.index t (1 : Fin 2) * 256 + 1 * (j 1).val = (j 1).val
    omega

/-- What point t writes back to the second result is block t of the position means of the activation. -/
theorem pos_flushed (c : Dev nD) (t : Fin cfg0.N) :
    (dat0 (F := Ideal) V c).flushed 2 t
      = ((cfg0.win 2).blk t).view.read (Elt Ideal) (Cert.Gate.posMean (V c main_v0)) := by
  show (cfg0.win 2).cut (grid0.coords t) ((dat0 (F := Ideal) V c).after 2 t) = _
  rw [after0_2]
  unfold out0_2
  rw [View.canon_unit_zero zeros2]
  simp only [View.ld_unit_zero (S := S8x256x1024) zeros3]
  obtain ⟨-, -, -, -, -, e5, e6⟩ := block_index t
  funext j
  rw [View.read_apply]
  refine pos_point (V c main_v0) _ _ _ fun k => ?_
  refine act_block V c t _ k _ _ ?_ rfl ?_
  · show win0_2.index t (0 : Fin 2) * 8 + 1 * (j 0).val = t.val * 8 + (j 0).val
    omega
  · show win0_2.index t (1 : Fin 2) * 1024 + 1 * (j 1).val = (j 1).val
    omega

/-! ## The blocks tile each result -/

/-- An index of the first result is in point t's block iff each coordinate is in the block's range on its axis. -/
theorem mem_chan_block (t : Fin cfg0.N) (i : S64x256.Idx) :
    i ∈ ((cfg0.win 1).blk t).view.set
      ↔ ∀ a : Fin 2, win0_1.index t a * S8x256.size a ≤ (i a).val
          ∧ (i a).val < win0_1.index t a * S8x256.size a + S8x256.size a := by
  show i ∈ ((View.whole main_v2_0).slice (win0_1.rect t)).set ↔ _
  rw [View.set_slice_whole, Rect.mem_set_unit]
  exact Iff.rfl

/-- The same for the second result. -/
theorem mem_pos_block (t : Fin cfg0.N) (i : S64x1024.Idx) :
    i ∈ ((cfg0.win 2).blk t).view.set
      ↔ ∀ a : Fin 2, win0_2.index t a * S8x1024.size a ≤ (i a).val
          ∧ (i a).val < win0_2.index t a * S8x1024.size a + S8x1024.size a := by
  show i ∈ ((View.whole main_v2_1).slice (win0_2.rect t)).set ↔ _
  rw [View.set_slice_whole, Rect.mem_set_unit]
  exact Iff.rfl

/-- Every index of the first result is in the block of a point that writes back: batch row r is in block r / 8. -/
theorem chan_cover (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  obtain ⟨t, ht⟩ : ∃ t : Fin cfg0.N, t.val = (i 0).val / 8 :=
    ⟨⟨(i 0).val / 8, by rw [show cfg0.N = 8 from N_0]; omega⟩, rfl⟩
  obtain ⟨-, -, -, e3, e4, -⟩ := block_index t
  refine ⟨t, flush0_1 t, ?_⟩
  rw [mem_chan_block]
  intro a
  match a with
  | ⟨0, _⟩ =>
    show win0_1.index t (0 : Fin 2) * 8 ≤ (i 0).val ∧ (i 0).val < win0_1.index t (0 : Fin 2) * 8 + 8
    omega
  | ⟨1, _⟩ =>
    show win0_1.index t (1 : Fin 2) * 256 ≤ (i 1).val ∧ (i 1).val < win0_1.index t (1 : Fin 2) * 256 + 256
    omega

/-- The same for the second result. -/
theorem pos_cover (i : S64x1024.Idx) :
    ∃ t : Fin cfg0.N, (cfg0.win 2).flush t = true ∧ i ∈ ((cfg0.win 2).blk t).view.set := by
  have hi0 : (i 0).val < 64 := (i 0).isLt
  have hi1 : (i 1).val < 1024 := (i 1).isLt
  obtain ⟨t, ht⟩ : ∃ t : Fin cfg0.N, t.val = (i 0).val / 8 :=
    ⟨⟨(i 0).val / 8, by rw [show cfg0.N = 8 from N_0]; omega⟩, rfl⟩
  obtain ⟨-, -, -, -, -, e5, e6⟩ := block_index t
  refine ⟨t, flush0_2 t, ?_⟩
  rw [mem_pos_block]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 1024 ≤ (i 1).val ∧ (i 1).val < win0_2.index t (1 : Fin 2) * 1024 + 1024
    omega

/-! ## The two result arrays after the kernel -/

/-- The first result array after the kernel: the channel means of the activation it was given. -/
theorem chan (c : Dev nD) :
    (dat0 (F := Ideal) V c).arrAt 1 cfg0.N = Cert.Gate.chanMean (V c main_v0) :=
  (dat0 (F := Ideal) V c).arrAt_eq_of_cover 1 (Cert.Gate.chanMean (V c main_v0)) (fun t _ => chan_flushed V c t) chan_cover

/-- The second result array after the kernel: the position means of the activation it was given. -/
theorem pos (c : Dev nD) :
    (dat0 (F := Ideal) V c).arrAt 2 cfg0.N = Cert.Gate.posMean (V c main_v0) :=
  (dat0 (F := Ideal) V c).arrAt_eq_of_cover 2 (Cert.Gate.posMean (V c main_v0)) (fun t _ => pos_flushed V c t) pos_cover

end Blocks

end Cert.KernelIdeal.SqueezeRegion

end
-- ==== Proof.LibStretch.lean ====
/-
  A rank-2 array repeated along a new axis of a rank-3 shape, read at an index.

  Two forms, general in the extents and in the element type: an [a, b] array given a TRAILING unit axis and repeated
  along it to [a, b, n] reads at (i, j, k) its entry (i, j); an [a, n] array given a MIDDLE unit axis and repeated
  along it to [a, b, n] reads at (i, j, k) its entry (i, k). (What `v[:, :, None]` and `v[:, None, :]` broadcast
  against a rank-3 block lower to: a shape cast that inserts the unit axis, then a broadcast.) In each the unit
  axis adds nothing to the row-major position, and the broadcast reads coordinate 0 on it.
-/
import Idealize.ShloMosaic.Lib.Pipeline.Value
import Idealize.ShloMosaic.Lib.ValueIdx

noncomputable section

namespace Cert.LibStretch

open Idealize.ShloMosaic Idealize.ShloMosaic.ValueIdx

section Stretch
variable {α : Type}

/-- An `[a, b]` array given a trailing unit axis and repeated along it to `[a, b, n]` reads, at `(i, j, k)`, the
    operand at `(i, j)`: the unit axis contributes nothing to the row-major position, and the broadcast reads `0` on it. -/
theorem stretchLast_apply {a b n : ℕ} (v : (⟨2, ![a, b]⟩ : Shape).Idx → α)
    (h : (⟨2, ![a, b]⟩ : Shape).ShapeCasts ⟨3, ![a, b, 1]⟩)
    (h' : (⟨3, ![a, b, 1]⟩ : Shape).Broadcasts ⟨3, ![a, b, n]⟩) (i : Fin a) (j : Fin b) (k : Fin n) :
    broadcastTo ⟨3, ![a, b, n]⟩ (shapeCast ⟨3, ![a, b, 1]⟩ v h) h' (ix3 i j k) = v (ix2 i j) := by
  refine (broadcastTo_apply _ h' (ix3 i j k) (ix3 i j (0 : Fin 1)) fun ax => ?_).trans ?_
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl
  · exact shapeCast_apply v h _ _ (by
      rw [Shape.rowMajor_val_two, Shape.rowMajor_val_three]
      show i.val * b + j.val = (i.val * b + j.val) * 1 + 0
      omega)

/-- An `[a, n]` array given a middle unit axis and repeated along it to `[a, b, n]` reads, at `(i, j, k)`, the
    operand at `(i, k)`. -/
theorem stretchMiddle_apply {a b n : ℕ} (v : (⟨2, ![a, n]⟩ : Shape).Idx → α)
    (h : (⟨2, ![a, n]⟩ : Shape).ShapeCasts ⟨3, ![a, 1, n]⟩)
    (h' : (⟨3, ![a, 1, n]⟩ : Shape).Broadcasts ⟨3, ![a, b, n]⟩) (i : Fin a) (j : Fin b) (k : Fin n) :
    broadcastTo ⟨3, ![a, b, n]⟩ (shapeCast ⟨3, ![a, 1, n]⟩ v h) h' (ix3 i j k) = v (ix2 i k) := by
  refine (broadcastTo_apply _ h' (ix3 i j k) (ix3 i (0 : Fin 1) k) fun ax => ?_).trans ?_
  · match ax with
    | ⟨0, _⟩ =>
      show i.val = if a = 1 then 0 else i.val
      split
      · have := i.isLt; omega
      · rfl
    | ⟨1, _⟩ => rfl
    | ⟨2, _⟩ =>
      show k.val = if n = 1 then 0 else k.val
      split
      · have := k.isLt; omega
      · rfl
  · exact shapeCast_apply v h _ _ (by
      rw [Shape.rowMajor_val_two, Shape.rowMajor_val_three]
      show i.val * n + k.val = (i.val * 1 + 0) * n + k.val
      rw [Nat.mul_one, Nat.add_zero])

end Stretch

end Cert.LibStretch

end
-- ==== Proof.FuseRegion.lean ====
/-
  The second region's result, index by index.

  Each grid point (i0, i1) of the 8 x 2 grid multiplies a [8, 256, 512] block of the activation by a per-(batch, channel)
  gate held as [8, 256] and by a per-(batch, position) gate held as [8, 512], each gate stretched along the axis it does
  not have, and keeps the larger product. The blocks of the result tile the [64, 256, 1024] array, so the array ends as
  the same function of the three whole arrays: the larger of the activation gated per channel and gated per position.
-/
import proofs.«131512_j62732292325378_2_alg».proof.Proof.Gen.KernelIdeal.Frame
import proofs.«131512_j62732292325378_2_alg».proof.Proof.Means
import proofs.«131512_j62732292325378_2_alg».proof.Proof.LibStretch
import Idealize.ShloMosaic.Lib.Pipeline.Value
import Idealize.ShloMosaic.Lib.ValueIdx
import Idealize.ShloMosaic.PureOps.Ideal.Laws

set_option maxRecDepth 16384

noncomputable section

namespace Cert.KernelIdeal.FuseRegion

open Cert.KernelIdeal Cert.KernelIdeal.Gen Idealize.ShloMosaic Idealize.ShloMosaic.TcCoe Idealize.SL.Sem
open Idealize.ShloMosaic.ValueIdx Cert.LibStretch
open Idealize.ShloMosaic.Pipeline (Dat)

/-! ## The body's result at an index -/

/-- What the body stores, at `(b, c, l)` of its block: the larger of the activation there times the channel gate at
    `(b, c)` and the activation there times the position gate at `(b, l)`. -/
theorem payload_apply (x0 : Vec Ideal S8x256x512 .f32) (x1 : Vec Ideal S8x256 .f32) (x2 : Vec Ideal S8x512 .f32)
    (b : Fin 8) (c : Fin 256) (l : Fin 512) :
    k1_pay1 x0 x1 x2 (ix3 b c l) = max (x0 (ix3 b c l) * x1 (ix2 b c)) (x0 (ix3 b c l) * x2 (ix2 b l)) := by
  unfold k1_pay1
  simp only [shapeCast_self]
  show max (x0 (ix3 b c l) * broadcastTo S8x256x512 (shapeCast S8x256x1 x1 _) _ (ix3 b c l))
      (x0 (ix3 b c l) * broadcastTo S8x256x512 (shapeCast S8x1x512 x2 _) _ (ix3 b c l)) = _
  rw [stretchLast_apply, stretchMiddle_apply]

/-- Hence block coordinates `(b, ch, l)` of the body's result are the gated maximum of three whole arrays at an array
    index `i`, once the three loaded blocks read those arrays where `i` says: the activation at `i`, the channel gate
    at `i`'s (batch, channel), the position gate at `i`'s (batch, position). -/
theorem payload_eq_gatedMax (T : Cert.Gate.Act3.Idx → EReal) (gc : Cert.Gate.PerChan.Idx → EReal)
    (gs : Cert.Gate.PerPos.Idx → EReal)
    (x0 : Vec Ideal S8x256x512 .f32) (x1 : Vec Ideal S8x256 .f32) (x2 : Vec Ideal S8x512 .f32)
    (b : Fin 8) (ch : Fin 256) (l : Fin 512) (i : Cert.Gate.Act3.Idx)
    (h0 : x0 (ix3 b ch l) = T i) (h1 : x1 (ix2 b ch) = gc (ix2 (i 0) (i 1)))
    (h2 : x2 (ix2 b l) = gs (ix2 (i 0) (i 2))) :
    k1_pay1 x0 x1 x2 (ix3 b ch l) = Cert.Gate.gatedMax T gc gs i := by
  rw [payload_apply, h0, h1, h2]
  rfl

/-! ## The grid: which block of each array a point holds -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 16 points: the activation's block is the result's block; the channel
    gate's block is the result's batch block and the one channel block; the position gate's block is the result's batch
    and position blocks; and the result's block indices stay in 8 x 1 x 2. -/
theorem index_facts : ∀ t : Fin cfg1.N,
    win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 2) = win1_3.index t (0 : Fin 3)
    ∧ win1_1.index t (1 : Fin 2) = win1_3.index t (1 : Fin 3)
    ∧ win1_2.index t (0 : Fin 2) = win1_3.index t (0 : Fin 3)
    ∧ win1_2.index t (1 : Fin 2) = win1_3.index t (2 : Fin 3)
    ∧ win1_3.index t (0 : Fin 3) ≤ 7 ∧ win1_3.index t (1 : Fin 3) = 0 ∧ win1_3.index t (2 : Fin 3) ≤ 1 :=
  (by decide +kernel : ∀ t : Fin grid1.N, _)

/-- Every block of the 8 x 1 x 2 tiling is some point's. -/
theorem index_onto : ∀ (q0 : Fin 8) (q2 : Fin 2), ∃ t : Fin cfg1.N, win1_3.index t = ![q0.val, 0, q2.val] :=
  (by decide +kernel : ∀ (q0 : Fin 8) (q2 : Fin 2), ∃ t : Fin grid1.N, win1_3.index t = ![q0.val, 0, q2.val])

/-! ## What a point writes back, and the whole array -/

section Region
variable (V : (c : Dev nD) → (b : Ref sig .tc) → Buf (Elt Ideal) ((c : Thread nD τ).loc b))

/-- What point `t` writes back is block `t` of the gated maximum of the three arrays as the region finds them. -/
theorem flushed_eq (c : Dev nD) (t : Fin cfg1.N) :
    (dat1 (F := Ideal) V c).flushed 3 t
      = ((cfg1.win 3).blk t).view.read (Elt Ideal) (Cert.Gate.gatedMax (V c main_v1) (V c main_v19) (V c main_v40)) := by
  show (cfg1.win 3).cut (grid1.coords t) ((dat1 V c).after 3 t) = _
  rw [after1_3]
  unfold out1_3
  rw [View.canon_unit_zero zeros3]
  simp only [View.ld_unit_zero (S := S8x256x512) zeros3, View.ld_unit_zero (S := S8x256) zeros2,
    View.ld_unit_zero (S := S8x512) zeros2]
  obtain ⟨e00, e01, e02, e10, e11, e20, e21, -, -, -⟩ := index_facts t
  funext j
  obtain ⟨b, ch, l, rfl⟩ : ∃ (b : Fin 8) (ch : Fin 256) (l : Fin 512), j = ix3 b ch l := ⟨j 0, j 1, j 2, eq_ix3 j⟩
  show k1_pay1 (iblk1 V c 0 t) (iblk1 V c 1 t) (iblk1 V c 2 t) (ix3 b ch l)
    = Cert.Gate.gatedMax (V c main_v1) (V c main_v19) (V c main_v40) (((cfg1.win 3).blk t).view.emb (ix3 b ch l))
  refine payload_eq_gatedMax _ _ _ _ _ _ b ch l _ ?_ ?_ ?_
  · show V c main_v1 (((cfg1.win 0).blk t).view.emb (ix3 b ch l)) = V c main_v1 (((cfg1.win 3).blk t).view.emb (ix3 b ch l))
    have h : ((cfg1.win 0).blk t).view.emb (ix3 b ch l) = ((cfg1.win 3).blk t).view.emb (ix3 b ch l) := by
      funext a; apply Fin.ext
      match a with
      | ⟨0, _⟩ => show win1_0.index t (0 : Fin 3) * 8 + 1 * b.val = win1_3.index t (0 : Fin 3) * 8 + 1 * b.val; omega
      | ⟨1, _⟩ => show win1_0.index t (1 : Fin 3) * 256 + 1 * ch.val = win1_3.index t (1 : Fin 3) * 256 + 1 * ch.val; omega
      | ⟨2, _⟩ => show win1_0.index t (2 : Fin 3) * 512 + 1 * l.val = win1_3.index t (2 : Fin 3) * 512 + 1 * l.val; omega
    rw [h]
  · show V c main_v19 (((cfg1.win 1).blk t).view.emb (ix2 b ch))
      = V c main_v19 (ix2 (((cfg1.win 3).blk t).view.emb (ix3 b ch l) 0) (((cfg1.win 3).blk t).view.emb (ix3 b ch l) 1))
    have h : ((cfg1.win 1).blk t).view.emb (ix2 b ch)
        = ix2 (((cfg1.win 3).blk t).view.emb (ix3 b ch l) 0) (((cfg1.win 3).blk t).view.emb (ix3 b ch l) 1) := by
      funext a; apply Fin.ext
      match a with
      | ⟨0, _⟩ => show win1_1.index t (0 : Fin 2) * 8 + 1 * b.val = win1_3.index t (0 : Fin 3) * 8 + 1 * b.val; omega
      | ⟨1, _⟩ => show win1_1.index t (1 : Fin 2) * 256 + 1 * ch.val = win1_3.index t (1 : Fin 3) * 256 + 1 * ch.val; omega
    rw [h]
    rfl
  · show V c main_v40 (((cfg1.win 2).blk t).view.emb (ix2 b l))
      = V c main_v40 (ix2 (((cfg1.win 3).blk t).view.emb (ix3 b ch l) 0) (((cfg1.win 3).blk t).view.emb (ix3 b ch l) 2))
    have h : ((cfg1.win 2).blk t).view.emb (ix2 b l)
        = ix2 (((cfg1.win 3).blk t).view.emb (ix3 b ch l) 0) (((cfg1.win 3).blk t).view.emb (ix3 b ch l) 2) := by
      funext a; apply Fin.ext
      match a with
      | ⟨0, _⟩ => show win1_2.index t (0 : Fin 2) * 8 + 1 * b.val = win1_3.index t (0 : Fin 3) * 8 + 1 * b.val; omega
      | ⟨1, _⟩ => show win1_2.index t (1 : Fin 2) * 512 + 1 * l.val = win1_3.index t (2 : Fin 3) * 512 + 1 * l.val; omega
    rw [h]
    rfl

/-- An index of the array is in point `t`'s block iff each coordinate is in the block's range on its axis. -/
theorem mem_block (t : Fin cfg1.N) (i : S64x256x1024.Idx) :
    i ∈ ((cfg1.win 3).blk t).view.set ↔ ∀ a : Fin 3, win1_3.index t a * S8x256x512.size a ≤ (i a).val
      ∧ (i a).val < win1_3.index t a * S8x256x512.size a + S8x256x512.size a := by
  show i ∈ ((View.whole main_v41).slice (win1_3.rect t)).set ↔ _
  rw [View.set_slice_whole, Rect.mem_set_unit]
  exact Iff.rfl

/-- Every index `(B, ch, L)` of the array is in the block of the point whose batch block is `B / 8` and whose position
    block is `L / 512`: the blocks tile the array. -/
theorem covered (i : S64x256x1024.Idx) :
    ∃ t : Fin cfg1.N, (cfg1.win 3).flush t = true ∧ i ∈ ((cfg1.win 3).blk t).view.set := by
  have hi0 : (i 0).val < 64 := (i 0).isLt
  have hi1 : (i 1).val < 256 := (i 1).isLt
  have hi2 : (i 2).val < 1024 := (i 2).isLt
  obtain ⟨t, ht⟩ := index_onto ⟨(i 0).val / 8, by omega⟩ ⟨(i 2).val / 512, by omega⟩
  have q0 : win1_3.index t (0 : Fin 3) = (i 0).val / 8 := congrFun ht 0
  have q1 : win1_3.index t (1 : Fin 3) = 0 := congrFun ht 1
  have q2 : win1_3.index t (2 : Fin 3) = (i 2).val / 512 := congrFun ht 2
  refine ⟨t, flush1_3 t, ?_⟩
  rw [mem_block]
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 256 ≤ (i 1).val ∧ (i 1).val < win1_3.index t (1 : Fin 3) * 256 + 256; omega
  | ⟨2, _⟩ => show win1_3.index t (2 : Fin 3) * 512 ≤ (i 2).val ∧ (i 2).val < win1_3.index t (2 : Fin 3) * 512 + 512; omega

/-- The result array after the region: the gated maximum of the activation, the channel gate and the position gate as
    the region finds them. -/
theorem gated (c : Dev nD) :
    (dat1 (F := Ideal) V c).arrAt 3 cfg1.N = Cert.Gate.gatedMax (V c main_v1) (V c main_v19) (V c main_v40) :=
  (dat1 (F := Ideal) V c).arrAt_eq_of_cover 3 _ (fun t _ => flushed_eq V c t) covered

end Region

end Cert.KernelIdeal.FuseRegion

end
-- ==== Proof.FoldRead.lean ====
/-
  The last boundary's contents read at the result and at the arguments (ideal instance).

  Walking the fold backwards from the result: the last reshape of the second launch's output array; that array is
  the gated maximum of the three arrays the second launch finds (its own module); of those, the activation is the
  reshaped second argument, and the two gates are the gate networks of the two arrays the first launch leaves;
  those are the two means of the reshaped first argument (their own module); every weight reaches its use
  unchanged because no operation and no launch writes an argument.
-/
import proofs.«131512_j62732292325378_2_alg».proof.Proof.Gen.KernelIdeal.Frame
import proofs.«131512_j62732292325378_2_alg».proof.Proof.Gates
import proofs.«131512_j62732292325378_2_alg».proof.Proof.Means
import proofs.«131512_j62732292325378_2_alg».proof.Proof.KernelValue
import proofs.«131512_j62732292325378_2_alg».proof.Proof.SqueezeRegion
import proofs.«131512_j62732292325378_2_alg».proof.Proof.FuseRegion
import Idealize.ShloMosaic.Lib.StableHlo.Run

set_option maxRecDepth 16384

noncomputable section

namespace Cert.KernelIdeal.FoldRead

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first launch: the two reshapes -/

/-- The first launch finds the first argument reshaped to [64, 256, 1024]. -/
theorem first_entry_x (c : Dev nD) :
    V1 m ρ c main_v0 = shapeCast S64x256x1024 (m ((c : Thread nD τ).loc main_arg0)) Facts₀.shapeCasts_S64x256x32x32_S64x256x1024 := by
  show StableHlo.after hostOps0 (W0 m ρ c) (Proc.devRef .tc main_v0) = _
  after_results <;> rfl

/-- After the two reshapes the second argument's reshape sits in its buffer. -/
theorem w1_t (c : Dev nD) :
    W1 m ρ c (Proc.devRef .tc main_v1) = shapeCast S64x256x1024 (m ((c : Thread nD τ).loc main_arg1)) Facts₀.shapeCasts_S64x256x32x32_S64x256x1024 := by
  show StableHlo.after hostOps0 (W0 m ρ c) (Proc.devRef .tc main_v1) = _
  after_results <;> rfl

/-- A buffer the two reshapes do not write holds the launch memory. -/
theorem w1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem w1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem w1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem w1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem w1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem w1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem w1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem w1_arg9 (c : Dev nD) : W1 m ρ c (Proc.devRef .tc main_arg9) = m ((c : Thread nD τ).loc main_arg9) := by
  show StableHlo.after hostOps0 (W0 m ρ c) (Proc.devRef .tc main_arg9) = _
  after_results <;> rfl

/-! ## After the first launch: its two output arrays are the two means -/

theorem w2_chan (c : Dev nD) :
    W2 m ρ c (Proc.devRef .tc main_v2_0) = Cert.Gate.chanMean (V1 m ρ c main_v0) :=
  (W2_arr m ρ c 1).trans (Cert.KernelIdeal.SqueezeRegion.chan (V1 m ρ) c)

theorem w2_pos (c : Dev nD) :
    W2 m ρ c (Proc.devRef .tc main_v2_1) = Cert.Gate.posMean (V1 m ρ c main_v0) :=
  (W2_arr m ρ c 2).trans (Cert.KernelIdeal.SqueezeRegion.pos (V1 m ρ) c)

/-! ## Between the launches: the two gate networks -/

/-- The second launch finds the reshaped second argument: nothing between writes it. -/
theorem second_entry_t (c : Dev nD) :
    V7 m ρ c main_v1 = shapeCast S64x256x1024 (m ((c : Thread nD τ).loc main_arg1)) Facts₀.shapeCasts_S64x256x32x32_S64x256x1024 := by
  have h : W7 m ρ c (Proc.devRef .tc main_v1) = W2 m ρ c (Proc.devRef .tc main_v1) := by
    dsimp only [W7, W6, W5, W4, W3, hostOps1, hostOps1_1, hostOps1_2, hostOps1_3, hostOps1_4]
    after_results_simp
  exact h.trans ((W2_of_ne m ρ c main_v1 (by decide)).trans (w1_t m ρ c))

/-- The second launch finds the channel gate of the first launch's first output. -/
theorem second_entry_gc (c : Dev nD) :
    V7 m ρ c main_v19 = Gates.chanGate (W2 m ρ c (Proc.devRef .tc main_v2_0)) (m ((c : Thread nD τ).loc main_arg2))
      (m ((c : Thread nD τ).loc main_arg3)) (m ((c : Thread nD τ).loc main_arg4)) (m ((c : Thread nD τ).loc main_arg5)) := by
  have h : W7 m ρ c (Proc.devRef .tc main_v19) = Gates.chanGate (W2 m ρ c (Proc.devRef .tc main_v2_0)) (W2 m ρ c (Proc.devRef .tc main_arg2))
      (W2 m ρ c (Proc.devRef .tc main_arg3)) (W2 m ρ c (Proc.devRef .tc main_arg4)) (W2 m ρ c (Proc.devRef .tc main_arg5)) := by
    dsimp only [W7, W6, W5, W4, W3, hostOps1, hostOps1_1, hostOps1_2, hostOps1_3, hostOps1_4]
    after_results_simp <;> rfl
  rw [(W2_of_ne m ρ c main_arg2 (by decide)).trans (w1_arg2 m ρ c), (W2_of_ne m ρ c main_arg3 (by decide)).trans (w1_arg3 m ρ c),
    (W2_of_ne m ρ c main_arg4 (by decide)).trans (w1_arg4 m ρ c), (W2_of_ne m ρ c main_arg5 (by decide)).trans (w1_arg5 m ρ c)] at h
  exact h

/-- The second launch finds the position gate of the first launch's second output. -/
theorem second_entry_gs (c : Dev nD) :
    V7 m ρ c main_v40 = Gates.posGate (W2 m ρ c (Proc.devRef .tc main_v2_1)) (m ((c : Thread nD τ).loc main_arg6))
      (m ((c : Thread nD τ).loc main_arg7)) (m ((c : Thread nD τ).loc main_arg8)) (m ((c : Thread nD τ).loc main_arg9)) := by
  have h : W7 m ρ c (Proc.devRef .tc main_v40) = Gates.posGate (W2 m ρ c (Proc.devRef .tc main_v2_1)) (W2 m ρ c (Proc.devRef .tc main_arg6))
      (W2 m ρ c (Proc.devRef .tc main_arg7)) (W2 m ρ c (Proc.devRef .tc main_arg8)) (W2 m ρ c (Proc.devRef .tc main_arg9)) := by
    dsimp only [W7, W6, W5, W4, W3, hostOps1, hostOps1_1, hostOps1_2, hostOps1_3, hostOps1_4]
    after_results_simp <;> rfl
  rw [(W2_of_ne m ρ c main_arg6 (by decide)).trans (w1_arg6 m ρ c), (W2_of_ne m ρ c main_arg7 (by decide)).trans (w1_arg7 m ρ c),
    (W2_of_ne m ρ c main_arg8 (by decide)).trans (w1_arg8 m ρ c), (W2_of_ne m ρ c main_arg9 (by decide)).trans (w1_arg9 m ρ c)] at h
  exact h

/-! ## The result -/

/-- The last boundary's contents at the result buffer. -/
theorem result (c : Dev nD) :
    W9 m ρ c (Proc.devRef .tc main_v42) = KernelValue.value (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  have h9 : W9 m ρ c (Proc.devRef .tc main_v42)
      = shapeCast S64x256x32x32 (W8 m ρ c (Proc.devRef .tc main_v41)) Facts₀.shapeCasts_S64x256x1024_S64x256x32x32 := by
    show StableHlo.after hostOps2 (W8 m ρ c) (Proc.devRef .tc main_v42) = _
    after_results <;> rfl
  have h8 : W8 m ρ c (Proc.devRef .tc main_v41)
      = Cert.Gate.gatedMax (V7 m ρ c main_v1) (V7 m ρ c main_v19) (V7 m ρ c main_v40) :=
    (W8_arr m ρ c 3).trans (Cert.KernelIdeal.FuseRegion.gated (V7 m ρ) c)
  rw [h9, h8, second_entry_t, second_entry_gc, second_entry_gs, w2_chan, w2_pos, first_entry_x]
  rfl

end Cert.KernelIdeal.FoldRead

end
-- ==== Proof.Flatten.lean ====
/-
  The two reshapes between an image batch [64, 256, 32, 32] and its flattened form [64, 256, 1024], read at an
  index: position l of the flat form is pixel (l / 32, l % 32), and pixel (p, q) is position p * 32 + q. Both are
  the row-major order of the last two axes.
-/
import proofs.«131512_j62732292325378_2_alg».proof.Proof.Means
import Idealize.ShloMosaic.Lib.Pipeline.Value
import Idealize.ShloMosaic.Lib.ValueIdx

noncomputable section

namespace Cert.Gate

open Idealize.ShloMosaic Idealize.ShloMosaic.ValueIdx

/-- A batch of images: batch, channel, row, column. -/
abbrev Img4 : Shape := ⟨4, ![64, 256, 32, 32]⟩

/-- The pixel of a flat position. -/
abbrev pixel (b : Fin 64) (c : Fin 256) (l : Fin 1024) : Img4.Idx :=
  ix4 b c (⟨l.val / 32, by have := l.isLt; omega⟩ : Fin 32) (⟨l.val % 32, by omega⟩ : Fin 32)

/-- The flat position of a pixel. -/
abbrev position (p q : Fin 32) : Fin 1024 := ⟨p.val * 32 + q.val, by have := p.isLt; have := q.isLt; omega⟩

/-- The flattened array at position `l` is the image at pixel (l / 32, l % 32). -/
theorem flatten_apply {α : Type} (x : Img4.Idx → α) (h : Img4.ShapeCasts Act3) (b : Fin 64) (c : Fin 256) (l : Fin 1024) :
    shapeCast Act3 x h (ix3 b c l) = x (pixel b c l) := by
  refine shapeCast_apply x h _ _ ?_
  rewrite [Shape.rowMajor_val_four, Shape.rowMajor_val_three]
  show ((b.val * 256 + c.val) * 32 + l.val / 32) * 32 + l.val % 32 = (b.val * 256 + c.val) * 1024 + l.val
  omega

/-- The un-flattened array at pixel (p, q) is the flat array at position p * 32 + q. -/
theorem unflatten_apply {α : Type} (y : Act3.Idx → α) (h : Act3.ShapeCasts Img4) (b : Fin 64) (c : Fin 256) (p q : Fin 32) :
    shapeCast Img4 y h (ix4 b c p q) = y (ix3 b c (position p q)) := by
  refine shapeCast_apply y h _ _ ?_
  rewrite [Shape.rowMajor_val_three, Shape.rowMajor_val_four]
  show (b.val * 256 + c.val) * 1024 + (p.val * 32 + q.val) = ((b.val * 256 + c.val) * 32 + p.val) * 32 + q.val
  omega

/-- The pixel of the position of a pixel is that pixel. -/
theorem pixel_position (b : Fin 64) (c : Fin 256) (p q : Fin 32) : pixel b c (position p q) = ix4 b c p q := by
  funext a
  apply Fin.ext
  have hp := p.isLt
  have hq := q.isLt
  match a with
  | ⟨0, _⟩ => rfl
  | ⟨1, _⟩ => rfl
  | ⟨2, _⟩ => show (p.val * 32 + q.val) / 32 = p.val; omega
  | ⟨3, _⟩ => show (p.val * 32 + q.val) % 32 = q.val; omega

end Cert.Gate

end
-- ==== Proof.Consts.lean ====
/-
  The float constants the two programs spell, as the extended reals their bit patterns denote: one, 256 and its
  reciprocal (an exact power of two, so the pattern denotes 1/256 itself).
-/
import Idealize.ShloMosaic.PureOps.Ideal

noncomputable section

namespace Cert.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `256.0` denotes the real `256`. -/
theorem ofBits_256 : Ideal.ofBits .f32 0x43800000#32 = ((256 : ℝ) : EReal) := by
  simp [Ideal.ofBits, Ideal.ieee, -EReal.coe_mul]; norm_num

/-- The pattern of `0.00390625` denotes the real `1/256`: two to the minus eight. -/
theorem ofBits_inv256 : Ideal.ofBits .f32 0x3B800000#32 = ((1 / 256 : ℝ) : EReal) := by
  simp [Ideal.ofBits, Ideal.ieee, -EReal.coe_mul]; norm_num

end Cert.Consts

end
-- ==== Proof.RefMeans.lean ====
/-
  The reference's two means are the specification's means of the flattened image batch.

  The reference sums each channel over BOTH image axes at once and divides by 1024; the sum over the pixels of a
  channel is the sum over its 1024 flat positions (the positions enumerate the pixels). It sums each pixel over the
  channels, from zero, divides by 256 and flattens; the specification multiplies each entry by one and the sum by
  1/256. On the extended reals dividing by the real 256 is multiplying by its reciprocal, whatever the dividend,
  so the two agree at every input, infinite ones included.
-/
import proofs.«131512_j62732292325378_2_alg».proof.Proof.Gen.ReferenceIdeal.Read
import proofs.«131512_j62732292325378_2_alg».proof.Proof.Means
import proofs.«131512_j62732292325378_2_alg».proof.Proof.Flatten
import proofs.«131512_j62732292325378_2_alg».proof.Proof.Consts
import Idealize.ShloMosaic.PureOps.Ideal.Laws

noncomputable section

open scoped BigOperators

namespace Cert.ReferenceIdeal.RefMeans

open Cert.ReferenceIdeal Cert.ReferenceIdeal.Facts₀ Cert.ReferenceIdeal.Read
open Idealize.ShloMosaic Idealize.ShloMosaic.ValueIdx Cert.Gate

/-- The pixels of channel `c` of batch `b`, the indices a sum over both image axes collects at (b, c), are
    enumerated by the 1024 flat positions. -/
theorem sum_pixels (x0 : Img4.Idx → EReal) (b : Fin 64) (c : Fin 256) :
    ∑ i ∈ Finset.univ.filter (fun i : Img4.Idx => reducesTo_S64x256x32x32_S64x256_d2_3.drop i = ix2 b c), x0 i
      = ∑ l : Fin 1024, x0 (pixel b c l) := by
  refine Finset.sum_bij' (fun i _ => (⟨(i 2).val * 32 + (i 3).val, by
      have h2 : (i 2).val < 32 := (i 2).isLt
      have h3 : (i 3).val < 32 := (i 3).isLt
      omega⟩ : Fin 1024)) (fun l _ => pixel b c l) (fun _ _ => Finset.mem_univ _) ?_ ?_ ?_ ?_
  · intro l _
    rw [Finset.mem_filter]
    refine ⟨Finset.mem_univ _, ?_⟩
    funext a
    apply Fin.ext
    match a with
    | ⟨0, _⟩ => rfl
    | ⟨1, _⟩ => rfl
  · intro i hi
    rw [Finset.mem_filter] at hi
    have h0 : (i 0).val = b.val := congrArg (fun j : S64x256.Idx => (j 0).val) hi.2
    have h1 : (i 1).val = c.val := congrArg (fun j : S64x256.Idx => (j 1).val) hi.2
    have h2 : (i 2).val < 32 := (i 2).isLt
    have h3 : (i 3).val < 32 := (i 3).isLt
    funext a
    apply Fin.ext
    match a with
    | ⟨0, _⟩ => exact h0.symm
    | ⟨1, _⟩ => exact h1.symm
    | ⟨2, _⟩ => show ((i 2).val * 32 + (i 3).val) / 32 = (i 2).val; omega
    | ⟨3, _⟩ => show ((i 2).val * 32 + (i 3).val) % 32 = (i 3).val; omega
  · intro l _
    apply Fin.ext
    show l.val / 32 * 32 + l.val % 32 = l.val
    omega
  · intro i hi
    rw [Finset.mem_filter] at hi
    have h0 : (i 0).val = b.val := congrArg (fun j : S64x256.Idx => (j 0).val) hi.2
    have h1 : (i 1).val = c.val := congrArg (fun j : S64x256.Idx => (j 1).val) hi.2
    have h2 : (i 2).val < 32 := (i 2).isLt
    have h3 : (i 3).val < 32 := (i 3).isLt
    refine congrArg x0 (funext fun a => Fin.ext ?_)
    match a with
    | ⟨0, _⟩ => exact h0
    | ⟨1, _⟩ => exact h1
    | ⟨2, _⟩ => show (i 2).val = ((i 2).val * 32 + (i 3).val) / 32; omega
    | ⟨3, _⟩ => show (i 3).val = ((i 2).val * 32 + (i 3).val) % 32; omega

/-- The reference's per-channel mean is the specification's, of the flattened batch. -/
theorem chanMean_eq (x0 : (⟨S64x256x32x32, .f32⟩ : BufTy).Contents (Elt Ideal)) (h : Img4.ShapeCasts Act3) :
    chanMean (shapeCast Act3 x0 h) = val_main_v2 (F := Ideal) x0 := by
  funext j
  obtain ⟨b, c, rfl⟩ : ∃ (b : Fin 64) (c : Fin 256), j = ix2 b c := ⟨j 0, j 1, eq_ix2 j⟩
  rw [chanMean_apply, val_main_v2_apply, val_main_v1_apply, val_main_cst_0_apply]
  unfold val_main_v0
  simp only [Host.reduceAdd, Ideal.hostReduceAdd_def, Ideal.hostDivf_def, Ideal.ofBits_def]
  unfold Ideal.hostReduceAdd
  rw [sum_pixels x0 b c, val_main_cst_apply, Ideal.ofBits_def, Ideal.ofBits_zero_f32, zero_add]
  refine congrArg (fun s => Ideal.div s _) (Finset.sum_congr rfl fun l _ => ?_)
  exact flatten_apply x0 h b c l

/-- The reference's per-position mean, flattened, is the specification's, of the flattened batch. -/
theorem posMean_eq (x0 : (⟨S64x256x32x32, .f32⟩ : BufTy).Contents (Elt Ideal)) (h : Img4.ShapeCasts Act3) :
    posMean (shapeCast Act3 x0 h) = val_main_v26 (F := Ideal) x0 := by
  funext j
  obtain ⟨b, l, rfl⟩ : ∃ (b : Fin 64) (l : Fin 1024), j = ix2 b l := ⟨j 0, j 1, eq_ix2 j⟩
  rw [posMean_apply, val_main_v26_apply, val_main_v25_apply, val_main_v23_apply, val_main_v24_apply, val_main_cst_4_apply,
    val_main_cst_3_apply]
  simp only [Ideal.hostDivf_def, Ideal.ofBits_def]
  rw [Ideal.ofBits_zero_f32, zero_add, Cert.Consts.ofBits_one, Cert.Consts.ofBits_inv256, Cert.Consts.ofBits_256,
    Ideal.div_coe (by norm_num : (256 : ℝ) ≠ 0)]
  refine congrArg (fun s => s * _) (Finset.sum_congr rfl fun k _ => ?_)
  rw [one_mul, flatten_apply x0 h b k l]
  refine congrArg x0 (funext fun a => Fin.ext ?_)
  have hb := b.isLt
  have hl := l.isLt
  match a with
  | ⟨0, _⟩ => show b.val = (b.val * 1024 + l.val) / 1024; omega
  | ⟨1, _⟩ => rfl
  | ⟨2, _⟩ => show l.val / 32 = (b.val * 1024 + l.val) / 32 % 32; omega
  | ⟨3, _⟩ => show l.val % 32 = (b.val * 1024 + l.val) % 32; omega

end Cert.ReferenceIdeal.RefMeans

end
-- ==== Proof.Bridge.lean ====
/-
  The kernel program's value is the reference's, index by index.

  At pixel (p, q) of channel c of batch b both are
      max (t · g_c (b, c)) (t · g_s (b, p·32 + q)),      t the second batch at that pixel,
  where g_c is the channel gate of the per-channel means and g_s the position gate of the per-position means of the
  first batch. The kernel's side reads the un-flattened gated maximum at the pixel's flat position; the
  reference's side reads its two broadcasts (one through two unit axes, one through a reshape and a unit channel
  axis). The gate networks are the same functions and the means agree (their own modules).
-/
import proofs.«131512_j62732292325378_2_alg».proof.Proof.KernelValue
import proofs.«131512_j62732292325378_2_alg».proof.Proof.RefMeans
import proofs.«131512_j62732292325378_2_alg».proof.Proof.Flatten
import proofs.«131512_j62732292325378_2_alg».proof.Proof.Gen.ReferenceIdeal.Read

noncomputable section

namespace Cert.Bridge

open Idealize.ShloMosaic Idealize.ShloMosaic.ValueIdx Cert.Gate
open Cert.ReferenceIdeal.Read

/-- The reference's channel-gate stage is the channel gate of its per-channel mean. -/
theorem ref_chanGate (x0 : (⟨Cert.ReferenceIdeal.S64x256x32x32, .f32⟩ : BufTy).Contents (Elt Ideal))
    (x2 : (⟨Cert.ReferenceIdeal.S1024x256, .f32⟩ : BufTy).Contents (Elt Ideal)) (x3 : (⟨Cert.ReferenceIdeal.S1024, .f32⟩ : BufTy).Contents (Elt Ideal))
    (x4 : (⟨Cert.ReferenceIdeal.S256x1024, .f32⟩ : BufTy).Contents (Elt Ideal)) (x5 : (⟨Cert.ReferenceIdeal.S256, .f32⟩ : BufTy).Contents (Elt Ideal)) :
    val_main_v19 (F := Ideal) x0 x2 x3 x4 x5 = Cert.ReferenceIdeal.Gates.chanGate (val_main_v2 (F := Ideal) x0) x2 x3 x4 x5 := rfl

/-- The reference's position-gate stage is the position gate of its flattened per-position mean. -/
theorem ref_posGate (x0 : (⟨Cert.ReferenceIdeal.S64x256x32x32, .f32⟩ : BufTy).Contents (Elt Ideal))
    (x6 : (⟨Cert.ReferenceIdeal.S4096x1024, .f32⟩ : BufTy).Contents (Elt Ideal)) (x7 : (⟨Cert.ReferenceIdeal.S4096, .f32⟩ : BufTy).Contents (Elt Ideal))
    (x8 : (⟨Cert.ReferenceIdeal.S1024x4096, .f32⟩ : BufTy).Contents (Elt Ideal)) (x9 : (⟨Cert.ReferenceIdeal.S1024, .f32⟩ : BufTy).Contents (Elt Ideal)) :
    val_main_v43 (F := Ideal) x0 x6 x7 x8 x9 = Cert.ReferenceIdeal.Gates.posGate (val_main_v26 (F := Ideal) x0) x6 x7 x8 x9 := rfl

/-- The channel gate reaches pixel (b, c, p, q) from (b, c): two broadcasts through unit axes. -/
theorem chan_index (b : Fin 64) (c : Fin 256) (p q : Fin 32) :
    idx_main_v20 (idx_main_v21 (ix4 b c p q)) = ix2 b c := by
  funext a
  apply Fin.ext
  match a with
  | ⟨0, _⟩ => rfl
  | ⟨1, _⟩ => rfl

/-- The position gate reaches pixel (b, c, p, q) from (b, p·32 + q): a reshape and a broadcast over the channels. -/
theorem pos_index (b : Fin 64) (c : Fin 256) (p q : Fin 32) :
    idx_main_v44 (idx_main_v45 (ix4 b c p q)) = ix2 b (position p q) := by
  funext a
  apply Fin.ext
  have hb := b.isLt
  have hp := p.isLt
  have hq := q.isLt
  match a with
  | ⟨0, _⟩ => show (((b.val * 1 + 0) * 32 + p.val) * 32 + q.val) / 1024 = b.val; omega
  | ⟨1, _⟩ => show (((b.val * 1 + 0) * 32 + p.val) * 32 + q.val) % 1024 = p.val * 32 + q.val; omega

/-- The kernel program's value at a pixel. -/
theorem kernel_at (x0 x1 : (⟨Cert.KernelIdeal.S64x256x32x32, .f32⟩ : BufTy).Contents (Elt Ideal))
    (x2 : (⟨Cert.KernelIdeal.S1024x256, .f32⟩ : BufTy).Contents (Elt Ideal)) (x3 : (⟨Cert.KernelIdeal.S1024, .f32⟩ : BufTy).Contents (Elt Ideal))
    (x4 : (⟨Cert.KernelIdeal.S256x1024, .f32⟩ : BufTy).Contents (Elt Ideal)) (x5 : (⟨Cert.KernelIdeal.S256, .f32⟩ : BufTy).Contents (Elt Ideal))
    (x6 : (⟨Cert.KernelIdeal.S4096x1024, .f32⟩ : BufTy).Contents (Elt Ideal)) (x7 : (⟨Cert.KernelIdeal.S4096, .f32⟩ : BufTy).Contents (Elt Ideal))
    (x8 : (⟨Cert.KernelIdeal.S1024x4096, .f32⟩ : BufTy).Contents (Elt Ideal)) (x9 : (⟨Cert.KernelIdeal.S1024, .f32⟩ : BufTy).Contents (Elt Ideal))
    (b : Fin 64) (c : Fin 256) (p q : Fin 32) :
    Cert.KernelIdeal.KernelValue.value x0 x1 x2 x3 x4 x5 x6 x7 x8 x9 (ix4 b c p q)
      = max (x1 (ix4 b c p q) * Cert.KernelIdeal.Gates.chanGate (chanMean (Cert.KernelIdeal.KernelValue.flat x0)) x2 x3 x4 x5 (ix2 b c))
          (x1 (ix4 b c p q) * Cert.KernelIdeal.Gates.posGate (posMean (Cert.KernelIdeal.KernelValue.flat x0)) x6 x7 x8 x9 (ix2 b (position p q))) := by
  unfold Cert.KernelIdeal.KernelValue.value
  rw [unflatten_apply, gatedMax_apply]
  have ht : Cert.KernelIdeal.KernelValue.flat x1 (ix3 b c (position p q)) = x1 (ix4 b c p q) :=
    (flatten_apply x1 _ b c (position p q)).trans (congrArg x1 (pixel_position b c p q))
  rw [ht]

/-- The reference's value at a pixel. -/
theorem reference_at (x0 x1 : (⟨Cert.ReferenceIdeal.S64x256x32x32, .f32⟩ : BufTy).Contents (Elt Ideal))
    (x2 : (⟨Cert.ReferenceIdeal.S1024x256, .f32⟩ : BufTy).Contents (Elt Ideal)) (x3 : (⟨Cert.ReferenceIdeal.S1024, .f32⟩ : BufTy).Contents (Elt Ideal))
    (x4 : (⟨Cert.ReferenceIdeal.S256x1024, .f32⟩ : BufTy).Contents (Elt Ideal)) (x5 : (⟨Cert.ReferenceIdeal.S256, .f32⟩ : BufTy).Contents (Elt Ideal))
    (x6 : (⟨Cert.ReferenceIdeal.S4096x1024, .f32⟩ : BufTy).Contents (Elt Ideal)) (x7 : (⟨Cert.ReferenceIdeal.S4096, .f32⟩ : BufTy).Contents (Elt Ideal))
    (x8 : (⟨Cert.ReferenceIdeal.S1024x4096, .f32⟩ : BufTy).Contents (Elt Ideal)) (x9 : (⟨Cert.ReferenceIdeal.S1024, .f32⟩ : BufTy).Contents (Elt Ideal))
    (b : Fin 64) (c : Fin 256) (p q : Fin 32) :
    val_main_v47 (F := Ideal) x0 x1 x2 x3 x4 x5 x6 x7 x8 x9 (ix4 b c p q)
      = max (x1 (ix4 b c p q) * Cert.ReferenceIdeal.Gates.chanGate (val_main_v2 (F := Ideal) x0) x2 x3 x4 x5 (ix2 b c))
          (x1 (ix4 b c p q) * Cert.ReferenceIdeal.Gates.posGate (val_main_v26 (F := Ideal) x0) x6 x7 x8 x9 (ix2 b (position p q))) := by
  rw [val_main_v47_apply, val_main_v22_apply, val_main_v46_apply, val_main_v21_apply, val_main_v20_apply, val_main_v45_apply,
    val_main_v44_apply, chan_index, pos_index, ref_chanGate, ref_posGate]
  rfl

/-- The two programs compute one function of the arguments. -/
theorem value_eq (x0 x1 : (⟨Cert.KernelIdeal.S64x256x32x32, .f32⟩ : BufTy).Contents (Elt Ideal))
    (x2 : (⟨Cert.KernelIdeal.S1024x256, .f32⟩ : BufTy).Contents (Elt Ideal)) (x3 : (⟨Cert.KernelIdeal.S1024, .f32⟩ : BufTy).Contents (Elt Ideal))
    (x4 : (⟨Cert.KernelIdeal.S256x1024, .f32⟩ : BufTy).Contents (Elt Ideal)) (x5 : (⟨Cert.KernelIdeal.S256, .f32⟩ : BufTy).Contents (Elt Ideal))
    (x6 : (⟨Cert.KernelIdeal.S4096x1024, .f32⟩ : BufTy).Contents (Elt Ideal)) (x7 : (⟨Cert.KernelIdeal.S4096, .f32⟩ : BufTy).Contents (Elt Ideal))
    (x8 : (⟨Cert.KernelIdeal.S1024x4096, .f32⟩ : BufTy).Contents (Elt Ideal)) (x9 : (⟨Cert.KernelIdeal.S1024, .f32⟩ : BufTy).Contents (Elt Ideal)) :
    Cert.KernelIdeal.KernelValue.value x0 x1 x2 x3 x4 x5 x6 x7 x8 x9 = val_main_v47 (F := Ideal) x0 x1 x2 x3 x4 x5 x6 x7 x8 x9 := by
  funext i
  obtain ⟨b, c, p, q, rfl⟩ : ∃ (b : Fin 64) (c : Fin 256) (p q : Fin 32), i = ix4 b c p q := ⟨i 0, i 1, i 2, i 3, eq_ix4 i⟩
  rw [kernel_at, reference_at, Cert.KernelIdeal.Gates.chanGate_eq, Cert.KernelIdeal.Gates.posGate_eq,
    Cert.ReferenceIdeal.RefMeans.chanMean_eq x0 _, Cert.ReferenceIdeal.RefMeans.posMean_eq x0 _]

end Cert.Bridge

end
-- ==== Proof.Claims.lean ====
/-
  The five claims.

  The three frames are the generated ones (the reference has no kernel: its frame is its run with the result
  dropped). The idealization rewrote nothing, so `preserves` is trivial. For `algebraic`: the idealized kernel's
  run ends with every buffer at the fold's last contents, which at the result buffer is the program's value as a
  function of the arguments; the reference's run ends at its composed term, which is its last stage; the two are
  one function of arguments that agree.
-/
import proofs.«131512_j62732292325378_2_alg».proof.Defs
import proofs.«131512_j62732292325378_2_alg».proof.Proof.Gen.Kernel.Frame
import proofs.«131512_j62732292325378_2_alg».proof.Proof.Gen.KernelIdeal.Frame
import proofs.«131512_j62732292325378_2_alg».proof.Proof.Gen.ReferenceIdeal.Run
import proofs.«131512_j62732292325378_2_alg».proof.Proof.Gen.ReferenceIdeal.Read
import proofs.«131512_j62732292325378_2_alg».proof.Proof.Gen.Pre_finite_inputs
import proofs.«131512_j62732292325378_2_alg».proof.Proof.FoldRun
import proofs.«131512_j62732292325378_2_alg».proof.Proof.FoldRead
import proofs.«131512_j62732292325378_2_alg».proof.Proof.Bridge

set_option maxRecDepth 16384

noncomputable section

namespace Cert.Proof.Claims

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen in
/-- The idealized kernel's run: the result buffer ends at the program's value of the arguments, the arguments as
    launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42) = KernelValue.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v42 (by decide))).trans (Cert.KernelIdeal.FoldRead.result m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩)
    (Cert.KernelIdeal.FoldRun.run_fold (F := Ideal) m ρ)

theorem algebraic : Cert.algebraic_KernelIdeal_ReferenceIdeal := by
  intro m ρ m' ρ' _ hagree
  refine ⟨fun c => Cert.KernelIdeal.KernelValue.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), kernel_run m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6, e7, e8, e9⟩ := hagree c
  rw [(h c).1, Cert.ReferenceIdeal.Read.val_main_v47_eq, e0, e1, e2, e3, e4, e5, e6, e7, e8, e9]
  exact (Cert.Bridge.value_eq _ _ _ _ _ _ _ _ _ _).symm

end Cert.Proof.Claims

end
-- ==== Proof.lean ====
/-
  The certificate of a squeeze-and-excitation block: an image batch `target` gated two ways by statistics of a
  batch `x` — per channel by a gate computed from each channel's mean over the 1024 pixels, per pixel by a gate
  computed from each pixel's mean over the 256 channels — the result the larger of the two gated copies. The kernel
  takes both means in one launch (the channel mean by a lane sum, the pixel mean by a product with a row of ones
  scaled by 1/256), computes the two gate networks on the host (the pixel gate's products in a 16-bit format,
  which the ideal instance does not see), and forms the maximum in a second launch over the flattened batch. The
  reference does all of it with array operations on the unflattened batch. On the extended reals the two are one
  function of the arguments, with no condition on the inputs: the only arithmetic between them is a sum in a
  different order, a product with one, and a division by 256 against a product with 1/256.

  Modules: Means (the specification), Consts, Flatten (the reshapes at an index), Gates (the gate networks),
  SqueezeRegion and FuseRegion (each launch's output arrays), FoldRun and FoldRead (the kernel program's run and its
  value), KernelValue, RefMeans and Bridge (the value against the reference's), Claims.
-/
import proofs.«131512_j62732292325378_2_alg».proof.Defs
import proofs.«131512_j62732292325378_2_alg».proof.Proof.Gen.Kernel
import proofs.«131512_j62732292325378_2_alg».proof.Proof.Gen.KernelIdeal
import proofs.«131512_j62732292325378_2_alg».proof.Proof.Gen.ReferenceIdeal
import proofs.«131512_j62732292325378_2_alg».proof.Proof.Gen.Pre_finite_inputs
import proofs.«131512_j62732292325378_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_ideal, Claims.frame_reference, Claims.preserves, Claims.algebraic⟩

end Cert.Proof

end
